-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x4x128 : Shape := ⟨3, ![131072, 4, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072x4x128 : S_.BroadcastsInDim S131072x4x128 (![] : Fin 0 → Fin S131072x4x128.rank)
  reducesTo_S131072x4x128_S_d0_1_2 : S131072x4x128.ReducesTo [0, 1, 2] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128x384 .f32) (main_arg5 : FVec F S384 .f32) (main_arg6 : FVec F S128x128 .f32) (main_arg7 : FVec F S128x128 .f32) (main_arg8 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128x384 .f32 := Host.absf main_arg4
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S131072x128 .f32) (main_arg1 : FVec F S131072x4x128 .f32) (main_arg2 : FVec F S131072x4x128 .f32) (main_arg3 : FVec F S128x384 .f32) (main_arg4 : FVec F S128x384 .f32) (main_arg5 : FVec F S384 .f32) (main_arg6 : FVec F S128x128 .f32) (main_arg7 : FVec F S128x128 .f32) (main_arg8 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x4x128 .f32 := Host.absf main_arg1
  let main_cst_0 : FVec F S_ .f32 := constant S_ .f32 0x7F800000#32
  let main_v5 : FVec F S131072x4x128 .f32 := broadcastInDim S131072x4x128 ![] bcast_S_S131072x4x128 main_cst_0
  let main_v6 : IVec S131072x4x128 1 := cmpf .olt main_v4 main_v5
  let main_c_1 : IVec S_ 1 := constantI S_ 1 1#1
  let main_v7 : IVec S_ 1 := (fun x v => Host.reduce IntOp.andi x v reducesTo_S131072x4x128_S_d0_1_2 h_S_) main_v6 main_c_1
  let main_v8 : IVec S_ 1 := andi main_v3 main_v7
  let main_v9 : FVec F S131072x4x128 .f32 := Host.absf main_arg2
  let main_cst_2 : FVec F S_ .f32 := constant S_ .f32 0x7F800000#32
  let main_v10 : FVec F S131072x4x128 .f32 := broadcastInDim S131072x4x128 ![] bcast_S_S131072x4x128 main_cst_2
  let main_v11 : IVec S131072x4x128 1 := cmpf .olt main_v9 main_v10
  let main_c_3 : IVec S_ 1 := constantI S_ 1 1#1
  let main_v12 : IVec S_ 1 := (fun x v => Host.reduce IntOp.andi x v reducesTo_S131072x4x128_S_d0_1_2 h_S_) main_v11 main_c_3
  let main_v13 : IVec S_ 1 := andi main_v8 main_v12
  let main_v14 : FVec F S128x384 .f32 := Host.absf main_arg3
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg5 main_arg6 main_arg7 main_arg8 main_v13 main_v16
-- ==== Kernel.lean ====
abbrev S131072x128 : Shape := ⟨2, ![131072, 128]⟩
abbrev S131072x4x128 : Shape := ⟨3, ![131072, 4, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S256x384 : Shape := ⟨2, ![256, 384]⟩
abbrev S1x384 : Shape := ⟨2, ![1, 384]⟩
abbrev S1x128 : Shape := ⟨2, ![1, 128]⟩
abbrev S2x131072x128 : Shape := ⟨3, ![2, 131072, 128]⟩
abbrev S2048x128 : Shape := ⟨2, ![2048, 128]⟩
abbrev S2048x4x128 : Shape := ⟨3, ![2048, 4, 128]⟩
abbrev S2x2048x128 : Shape := ⟨3, ![2, 2048, 128]⟩
abbrev S2048x1x128 : Shape := ⟨3, ![2048, 1, 128]⟩
abbrev S2048x256 : Shape := ⟨2, ![2048, 256]⟩
abbrev S2048x384 : Shape := ⟨2, ![2048, 384]⟩
abbrev S1x2048x128 : Shape := ⟨3, ![1, 2048, 128]⟩

abbrev nBuf : Space → Nat
  | .hbm => 16
  | .vmem => 13
  | .smem => 0
  | _ => 0

abbrev bufTy : (tb : Table) → Fin (tcTables nBuf tb) → BufTy
  | .hbm, ⟨0, _⟩ => ⟨S131072x128, .f32⟩
  | .hbm, ⟨1, _⟩ => ⟨S131072x4x128, .f32⟩
  | .hbm, ⟨2, _⟩ => ⟨S131072x4x128, .f32⟩
  | .hbm, ⟨3, _⟩ => ⟨S128x384, .f32⟩
  | .hbm, ⟨4, _⟩ => ⟨S128x384, .f32⟩
  | .hbm, ⟨5, _⟩ => ⟨S384, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S256x384, .f32⟩
  | .hbm, ⟨10, _⟩ => ⟨S256x384, .bf16⟩
  | .hbm, ⟨11, _⟩ => ⟨S1x384, .f32⟩
  | .hbm, ⟨12, _⟩ => ⟨S128x128, .bf16⟩
  | .hbm, ⟨13, _⟩ => ⟨S128x128, .bf16⟩
  | .hbm, ⟨14, _⟩ => ⟨S1x128, .f32⟩
  | .hbm, ⟨15, _⟩ => ⟨S2x131072x128, .f32⟩
  | .local _ .vmem, ⟨0, _⟩ => ⟨S2048x128, .f32⟩
  | .local _ .vmem, ⟨1, _⟩ => ⟨S2048x128, .f32⟩
  | .local _ .vmem, ⟨2, _⟩ => ⟨S2048x4x128, .f32⟩
  | .local _ .vmem, ⟨3, _⟩ => ⟨S2048x4x128, .f32⟩
  | .local _ .vmem, ⟨4, _⟩ => ⟨S2048x4x128, .f32⟩
  | .local _ .vmem, ⟨5, _⟩ => ⟨S2048x4x128, .f32⟩
  | .local _ .vmem, ⟨6, _⟩ => ⟨S256x384, .bf16⟩
  | .local _ .vmem, ⟨7, _⟩ => ⟨S1x384, .f32⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S2x2048x128, .f32⟩
  | .local _ .vmem, ⟨12, _⟩ => ⟨S2x2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S128x384_S128x384_S256x384_d0 : Shape.Concatenates [S128x384, S128x384] S256x384 0
  bitsLt_bf16_f32 : FTy.bits .bf16 < FTy.bits .f32
  shapeCasts_S384_S1x384 : S384.ShapeCasts S1x384
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S2048x4x128_S2048x1x128_0_0_0 : ∀ a, (![0, 0, 0] : Fin 3 → Nat) a + S2048x1x128.size a ≤ S2048x4x128.size a
  h_S2048x1x128 : 0 < S2048x1x128.numel
  shapeCasts_S2048x1x128_S2048x128 : S2048x1x128.ShapeCasts S2048x128
  inb_S2048x4x128_S2048x1x128_0_1_0 : ∀ a, (![0, 1, 0] : Fin 3 → Nat) a + S2048x1x128.size a ≤ S2048x4x128.size a
  inb_S2048x4x128_S2048x1x128_0_2_0 : ∀ a, (![0, 2, 0] : Fin 3 → Nat) a + S2048x1x128.size a ≤ S2048x4x128.size a
  inb_S2048x4x128_S2048x1x128_0_3_0 : ∀ a, (![0, 3, 0] : Fin 3 → Nat) a + S2048x1x128.size a ≤ S2048x4x128.size a
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  concatenates_S2048x128_S2048x128_S2048x256_d1 : Shape.Concatenates [S2048x128, S2048x128] S2048x256 1
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2x2048x128_S1x2048x128_0_0_0 : ∀ a, (![0, 0, 0] : Fin 3 → Nat) a + S1x2048x128.size a ≤ S2x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S2x2048x128_S1x2048x128_1_0_0 : ∀ a, (![1, 0, 0] : Fin 3 → Nat) a + S1x2048x128.size a ≤ S2x2048x128.size a
  dot_S2048x256_S256x384_S2048x384_1_0_0_1_n_n_wf : DotDims.WF S2048x256 S256x384 S2048x384 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4x128.size a ≤ S131072x4x128.size a
  hwx0_1 : ∀ i : grid0.Coords, EltTy.bits .f32 = 32 ∨ (Rect.block (s := S131072x4x128) S2048x4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4x128.size a ≤ S131072x4x128.size a
  hwx0_2 : ∀ i : grid0.Coords, EltTy.bits .f32 = 32 ∨ (Rect.block (s := S131072x4x128) S2048x4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x384.size a ≤ S256x384.size a
  hwx0_3 : ∀ i : grid0.Coords, EltTy.bits .bf16 = 32 ∨ (Rect.block (s := S256x384) S256x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x2048x128.size a ≤ S2x131072x128.size a
  hwx0_8 : ∀ i : grid0.Coords, EltTy.bits .f32 = 32 ∨ (Rect.block (s := S2x131072x128) S2x2048x128.size (cc0_transform_8 i) (hinb0_8 i)).WholeWords (EltTy.packing .f32)

variable [Facts₀]

def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S2x2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072x4x128 : Shape := ⟨3, ![131072, 4, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S_ : Shape := ⟨0, ![]⟩
abbrev S131072x384 : Shape := ⟨2, ![131072, 384]⟩
abbrev S1x384 : Shape := ⟨2, ![1, 384]⟩
abbrev S131072x1x128 : Shape := ⟨3, ![131072, 1, 128]⟩
abbrev S1x1x128 : Shape := ⟨3, ![1, 1, 128]⟩
abbrev S1x131072x128 : Shape := ⟨3, ![1, 131072, 128]⟩
abbrev S2x131072x128 : Shape := ⟨3, ![2, 131072, 128]⟩

abbrev nBuf : Space → Nat
  | .hbm => 63
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x4x128, .f32⟩
  | .hbm, ⟨2, _⟩ => ⟨S131072x4x128, .f32⟩
  | .hbm, ⟨3, _⟩ => ⟨S128x384, .f32⟩
  | .hbm, ⟨4, _⟩ => ⟨S128x384, .f32⟩
  | .hbm, ⟨5, _⟩ => ⟨S384, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S131072x128, .f32⟩
  | .hbm, ⟨11, _⟩ => ⟨S131072x384, .f32⟩
  | .hbm, ⟨12, _⟩ => ⟨S131072x384, .f32⟩
  | .hbm, ⟨13, _⟩ => ⟨S131072x384, .f32⟩
  | .hbm, ⟨14, _⟩ => ⟨S1x384, .f32⟩
  | .hbm, ⟨15, _⟩ => ⟨S131072x384, .f32⟩
  | .hbm, ⟨16, _⟩ => ⟨S131072x384, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S_, .f32⟩
  | .hbm, ⟨23, _⟩ => ⟨S131072x128, .f32⟩
  | .hbm, ⟨24, _⟩ => ⟨S131072x128, .f32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S_, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S131072x1x128, .f32⟩
  | .hbm, ⟨39, _⟩ => ⟨S131072x4x128, .f32⟩
  | .hbm, ⟨40, _⟩ => ⟨S131072x4x128, .f32⟩
  | .hbm, ⟨41, _⟩ => ⟨S131072x4x128, .f32⟩
  | .hbm, ⟨42, _⟩ => ⟨S1x1x128, .f32⟩
  | .hbm, ⟨43, _⟩ => ⟨S131072x4x128, .f32⟩
  | .hbm, ⟨44, _⟩ => ⟨S131072x4x128, .f32⟩
  | .hbm, ⟨45, _⟩ => ⟨S131072x4x128, .f32⟩
  | .hbm, ⟨46, _⟩ => ⟨S131072x4x128, .f32⟩
  | .hbm, ⟨47, _⟩ => ⟨S_, .f32⟩
  | .hbm, ⟨48, _⟩ => ⟨S131072x4x128, .f32⟩
  | .hbm, ⟨49, _⟩ => ⟨S131072x4x128, .f32⟩
  | .hbm, ⟨50, _⟩ => ⟨S_, .f32⟩
  | .hbm, ⟨51, _⟩ => ⟨S131072x4x128, .f32⟩
  | .hbm, ⟨52, _⟩ => ⟨S131072x4x128, .f32⟩
  | .hbm, ⟨53, _⟩ => ⟨S131072x128, .f32⟩
  | .hbm, ⟨54, _⟩ => ⟨S131072x4x128, .f32⟩
  | .hbm, ⟨55, _⟩ => ⟨S_, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S1x131072x128, .f32⟩
  | .hbm, ⟨61, _⟩ => ⟨S1x131072x128, .f32⟩
  | .hbm, ⟨62, _⟩ => ⟨S2x131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  reducesTo_S131072x4x128_S131072x128_d1 : S131072x4x128.ReducesTo [1] S131072x128
  h_S_ : 0 < S_.numel
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  bcast_S_S131072x128 : S_.BroadcastsInDim S131072x128 (![] : Fin 0 → Fin S131072x128.rank)
  bcast_S131072x128_S131072x1x128_0_2 : S131072x128.BroadcastsInDim S131072x1x128 (![0, 2] : Fin 2 → Fin S131072x1x128.rank)
  bcast_S131072x1x128_S131072x4x128_0_1_2 : S131072x1x128.BroadcastsInDim S131072x4x128 (![0, 1, 2] : Fin 3 → Fin S131072x4x128.rank)
  bcast_S128_S1x1x128_2 : S128.BroadcastsInDim S1x1x128 (![2] : Fin 1 → Fin S1x1x128.rank)
  bcast_S1x1x128_S131072x4x128_0_1_2 : S1x1x128.BroadcastsInDim S131072x4x128 (![0, 1, 2] : Fin 3 → Fin S131072x4x128.rank)
  bcast_S_S131072x4x128 : S_.BroadcastsInDim S131072x4x128 (![] : Fin 0 → Fin S131072x4x128.rank)
  bcast_S131072x128_S1x131072x128_1_2 : S131072x128.BroadcastsInDim S1x131072x128 (![1, 2] : Fin 2 → Fin S1x131072x128.rank)
  concatenates_S1x131072x128_S1x131072x128_S2x131072x128_d0 : Shape.Concatenates [S1x131072x128, S1x131072x128] S2x131072x128 0
  dot_S131072x128_S128x384_S131072x384_1_0_0_1_n_n_wf : DotDims.WF S131072x128 S128x384 S131072x384 [1] [0] [0] [1] [] []
  dot_S131072x128_S128x128_S131072x128_1_0_0_1_n_n_wf : DotDims.WF S131072x128 S128x128 S131072x128 [1] [0] [0] [1] [] []
  dot_S131072x4x128_S128x128_S131072x4x128_2_0_01_1_n_n_wf : DotDims.WF S131072x4x128 S128x128 S131072x4x128 [2] [0] [0, 1] [1] [] []

variable [Facts₀]

def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x4x128_S128x128_S131072x4x128_2_0_01_1_n_n : DotDims S131072x4x128 S128x128 S131072x4x128 where
  lhsContracting := [2]
  rhsContracting := [0]
  lhsNonContracting := [0, 1]
  rhsNonContracting := [1]
  lhsBatch := []
  rhsBatch := []
  wf := dot_S131072x4x128_S128x128_S131072x4x128_2_0_01_1_n_n_wf

class Facts : Prop extends Facts₀ where

variable [Facts]
-- ==== Proof.Spec.lean ====
/-
  The child-sum Tree-LSTM node update over the extended reals, ONE node at a time.

  A node has an input row `x : Fin 128 → EReal`, four children with hidden rows `h k` and memory rows `c k`
  (`k : Fin 4`), and the layer has weights `Wi Ui : 128 × 384`, `Wf Uf : 128 × 128` and biases `bi : 384`, `bf : 128`.
  With `hs = Σ_k h k` the summed child state,

    iou g   = (Σ_j x j · Wi j g  +  Σ_j hs j · Ui j g) + bi g                    (g : Fin 384, three gates of width 128)
    f k q   = σ((Σ_j x j · Wf j q  +  Σ_j h k j · Uf j q) + bf q)               (one forget gate per child)
    c' q    = σ(iou q) · tanh(iou (256 + q))  +  Σ_k f k q · c k q
    h' q    = σ(iou (128 + q)) · tanh(c' q)

  and the node's result is the pair (h', c').  `σ` is the logistic function `1 / (1 + e⁻ᶻ)` and `tanh` the hyperbolic
  tangent, both extended to ±∞ by their limits.  Nothing here needs the entries to be finite: the only laws used
  between the two spellings of this update are commutativity and associativity of `+`, which hold on all of
  `EReal`; no product is ever distributed over a sum.
-/
import Mathlib.Data.EReal.Operations
import Mathlib.Algebra.BigOperators.Fin
import Idealize.ShloMosaic.PureOps.Ideal

noncomputable section

namespace TreeLstm

open Idealize.ShloMosaic

/-- Column `q` of the input gate inside the 384-wide pre-activation. -/
def gI (q : Fin 128) : Fin 384 := ⟨q.val, by omega⟩
/-- Column `q` of the output gate: the second block of 128. -/
def gO (q : Fin 128) : Fin 384 := ⟨128 + q.val, by omega⟩
/-- Column `q` of the update candidate: the third block of 128. -/
def gU (q : Fin 128) : Fin 384 := ⟨256 + q.val, by omega⟩

/-- Row `j` of the upper half of a 256-row matrix. -/
def top (j : Fin 128) : Fin 256 := ⟨j.val, by omega⟩
/-- Row `j` of the lower half of a 256-row matrix. -/
def bot (j : Fin 128) : Fin 256 := ⟨128 + j.val, by omega⟩

section Cell

variable (x : Fin 128 → EReal) (h c : Fin 4 → Fin 128 → EReal)
  (Wi Ui : Fin 128 → Fin 384 → EReal) (bi : Fin 384 → EReal)
  (Wf Uf : Fin 128 → Fin 128 → EReal) (bf : Fin 128 → EReal)

/-- The children's hidden states, summed. -/
def hsum (j : Fin 128) : EReal := ∑ k : Fin 4, h k j

/-- The three gates' pre-activation. -/
def iou (g : Fin 384) : EReal :=
  (∑ j : Fin 128, x j * Wi j g + ∑ j : Fin 128, hsum h j * Ui j g) + bi g

/-- Child `k`'s forget gate. -/
def forget (k : Fin 4) (q : Fin 128) : EReal :=
  Ideal.logistic ((∑ j : Fin 128, x j * Wf j q + ∑ j : Fin 128, h k j * Uf j q) + bf q)

/-- The node's new memory. -/
def cnew (q : Fin 128) : EReal :=
  Ideal.logistic (iou x h Wi Ui bi (gI q)) * Ideal.tanh (iou x h Wi Ui bi (gU q))
    + ∑ k : Fin 4, forget x h Wf Uf bf k q * c k q

/-- The node's new hidden state. -/
def hnew (q : Fin 128) : EReal :=
  Ideal.logistic (iou x h Wi Ui bi (gO q)) * Ideal.tanh (cnew x h c Wi Ui bi Wf Uf bf q)

/-- The node's result: plane 0 is the hidden state, plane 1 the memory. -/
def cell (s : Fin 2) (q : Fin 128) : EReal :=
  if s.val = 0 then hnew x h c Wi Ui bi Wf Uf bf q else cnew x h c Wi Ui bi Wf Uf bf q

theorem cell_zero (q : Fin 128) : cell x h c Wi Ui bi Wf Uf bf 0 q = hnew x h c Wi Ui bi Wf Uf bf q := rfl
theorem cell_one (q : Fin 128) : cell x h c Wi Ui bi Wf Uf bf 1 q = cnew x h c Wi Ui bi Wf Uf bf q := rfl

end Cell

/-! ## The regrouping laws between the two spellings -/

/-- Four terms added left to right are their sum. -/
theorem sum4 (a : Fin 4 → EReal) : ((a 0 + a 1) + a 2) + a 3 = ∑ k : Fin 4, a k := by
  rw [Fin.sum_univ_four]

/-- A sum started from zero is the sum. -/
theorem zero_sum4 (a : Fin 4 → EReal) : (0 : EReal) + ∑ k : Fin 4, a k = ∑ k : Fin 4, a k := zero_add _

/-- Four terms accumulated one by one onto `z` are `z` plus their sum. -/
theorem acc4 (z : EReal) (a : Fin 4 → EReal) : (((z + a 0) + a 1) + a 2) + a 3 = z + ∑ k : Fin 4, a k := by
  rw [Fin.sum_univ_four, add_assoc z, add_assoc z, add_assoc z]

/-- A contraction over 256 whose left factor is two 128-rows side by side is the sum of the two 128-contractions,
    the right factor split into its upper and lower halves. -/
theorem sum_cat (v w : Fin 256 → EReal) :
    ∑ k : Fin 256, v k * w k = ∑ j : Fin 128, v (top j) * w (top j) + ∑ j : Fin 128, v (bot j) * w (bot j) := by
  have e := Fin.sum_univ_add (M := EReal) (a := 128) (b := 128) (fun k : Fin (128 + 128) => v k * w k)
  refine e.trans ?_
  congr 1

end TreeLstm

end
-- ==== Proof.Result.lean ====
/-
  The Tree-LSTM layer's result as ONE function of the nine argument arrays: entry `(s, n, q)` of the stacked
  `[2, N, 128]` result is plane `s`, column `q` of node `n`'s update, which reads row `n` of the input, child-hidden
  and child-memory arrays and the whole weight and bias arrays.
-/
import proofs.«181173_j27504970564118_2_alg».proof.Proof.Spec
import Idealize.ShloMosaic.Lib.ValueIdx

noncomputable section

namespace TreeLstm

open Idealize.ShloMosaic Idealize.ShloMosaic.ValueIdx

section
variable (a0 : (⟨2, ![131072, 128]⟩ : Shape).Idx → EReal) (a1 a2 : (⟨3, ![131072, 4, 128]⟩ : Shape).Idx → EReal)
  (a3 a4 : (⟨2, ![128, 384]⟩ : Shape).Idx → EReal) (a5 : (⟨1, ![384]⟩ : Shape).Idx → EReal)
  (a6 a7 : (⟨2, ![128, 128]⟩ : Shape).Idx → EReal) (a8 : (⟨1, ![128]⟩ : Shape).Idx → EReal)

/-- Node `n`'s update, read off the arrays. -/
def rowCell (s : Fin 2) (n : Fin 131072) (q : Fin 128) : EReal :=
  cell (fun j => a0 (ix2 n j)) (fun k j => a1 (ix3 n k j)) (fun k j => a2 (ix3 n k j))
    (fun j g => a3 (ix2 j g)) (fun j g => a4 (ix2 j g)) (fun g => a5 (ix1 g))
    (fun j g => a6 (ix2 j g)) (fun j g => a7 (ix2 j g)) (fun g => a8 (ix1 g)) s q

/-- The stacked result array. -/
def result : (⟨3, ![2, 131072, 128]⟩ : Shape).Idx → EReal :=
  fun i => rowCell a0 a1 a2 a3 a4 a5 a6 a7 a8 (i 0) (i 1) (i 2)

theorem result_ix3 (s : Fin 2) (n : Fin 131072) (q : Fin 128) :
    result a0 a1 a2 a3 a4 a5 a6 a7 a8 (ix3 s n q) = rowCell a0 a1 a2 a3 a4 a5 a6 a7 a8 s n q := rfl

end

end TreeLstm

end
-- ==== Proof.Windows.lean ====
/-
  What the region finds in each window's array, and each input window's block at a grid point, entry by entry.

  Before the region the host stacks the input weights on top of the child weights (a 256-row matrix), changes three
  weight arrays' float format (the identity on extended reals) and gives the two bias vectors a leading unit axis.
  The grid has 64 points; at point `t` the three per-node windows hold rows `2048·t … 2048·t + 2047` of their arrays,
  and the five weight and bias windows hold their whole arrays at every point.
-/
import proofs.«181173_j27504970564118_2_alg».proof.Proof.Spec
import proofs.«181173_j27504970564118_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays the host wrote before the region -/

/-- The fused weight matrix: the input weights stacked on the child weights. -/
theorem V_v1 (c : Dev nD) : @Eq (S256x384.Idx → EReal) (V m c main_v1)
    (truncf (F := Ideal) .bf16 (concatenate S256x384 0 [⟨S128x384, m ((c : Thread nD τ).loc main_arg3)⟩, ⟨S128x384, m ((c : Thread nD τ).loc main_arg4)⟩] concatenates_S128x384_S128x384_S256x384_d0) bitsLt_bf16_f32) := by
  dsimp only [Gen.V, Gen.hostOps0]
  after_results

/-- The gate bias as one row. -/
theorem V_v2 (c : Dev nD) : @Eq (S1x384.Idx → EReal) (V m c main_v2)
    (shapeCast S1x384 (m ((c : Thread nD τ).loc main_arg5)) shapeCasts_S384_S1x384) := by
  dsimp only [Gen.V, Gen.hostOps0]
  after_results
  rfl

/-- The forget gate's input weights, their format changed. -/
theorem V_v3 (c : Dev nD) : @Eq (S128x128.Idx → EReal) (V m c main_v3)
    (truncf (F := Ideal) .bf16 (m ((c : Thread nD τ).loc main_arg6)) bitsLt_bf16_f32) := by
  dsimp only [Gen.V, Gen.hostOps0]
  after_results

/-- The forget gate's child weights, their format changed. -/
theorem V_v4 (c : Dev nD) : @Eq (S128x128.Idx → EReal) (V m c main_v4)
    (truncf (F := Ideal) .bf16 (m ((c : Thread nD τ).loc main_arg7)) bitsLt_bf16_f32) := by
  dsimp only [Gen.V, Gen.hostOps0]
  after_results

/-- The forget gate's bias as one row. -/
theorem V_v5 (c : Dev nD) : @Eq (S1x128.Idx → EReal) (V m c main_v5)
    (shapeCast S1x128 (m ((c : Thread nD τ).loc main_arg8)) shapeCasts_S128_S1x128) := by
  dsimp only [Gen.V, Gen.hostOps0]
  after_results
  rfl

/-- Row `j` of the fused matrix's upper half is row `j` of the input weights. -/
theorem Wcat_top (c : Dev nD) (j : Fin 128) (g : Fin 384) :
    (V m c main_v1 : S256x384.Idx → EReal) (ix2 (TreeLstm.top j) g) = (m ((c : Thread nD τ).loc main_arg3) : S128x384.Idx → EReal) (ix2 j g) := by
  refine (congrFun (V_v1 m c) (ix2 (TreeLstm.top j) g)).trans ?_
  exact concatenate_pair_apply_left 0 _ _ concatenates_S128x384_S128x384_S256x384_d0 (ix2 (TreeLstm.top j) g) rfl (ix2 j g)
    (fun b => by match b with | ⟨0, _⟩ => rfl | ⟨1, _⟩ => rfl)

/-- Row `128 + j` of the fused matrix is row `j` of the child weights. -/
theorem Wcat_bot (c : Dev nD) (j : Fin 128) (g : Fin 384) :
    (V m c main_v1 : S256x384.Idx → EReal) (ix2 (TreeLstm.bot j) g) = (m ((c : Thread nD τ).loc main_arg4) : S128x384.Idx → EReal) (ix2 j g) := by
  refine (congrFun (V_v1 m c) (ix2 (TreeLstm.bot j) g)).trans ?_
  exact concatenate_pair_apply_right 0 _ _ concatenates_S128x384_S128x384_S256x384_d0 (ix2 (TreeLstm.bot j) g) rfl rfl (ix2 j g)
    (fun b hb => by match b with | ⟨0, _⟩ => exact absurd rfl hb | ⟨1, _⟩ => rfl)
    (by show j.val + 128 = 128 + j.val; omega)

/-- The gate bias row at column `g`. -/
theorem bias_iou (c : Dev nD) (g : Fin 384) :
    (V m c main_v2 : S1x384.Idx → EReal) (ix2 (0 : Fin 1) g) = (m ((c : Thread nD τ).loc main_arg5) : S384.Idx → EReal) (ix1 g) :=
  (congrFun (V_v2 m c) (ix2 (0 : Fin 1) g)).trans (shapeCast_a_1a_apply _ _ 0 g)

/-- The forget bias row at column `g`. -/
theorem bias_f (c : Dev nD) (g : Fin 128) :
    (V m c main_v5 : S1x128.Idx → EReal) (ix2 (0 : Fin 1) g) = (m ((c : Thread nD τ).loc main_arg8) : S128.Idx → EReal) (ix1 g) :=
  (congrFun (V_v5 m c) (ix2 (0 : Fin 1) g)).trans (shapeCast_a_1a_apply _ _ 0 g)

/-- The forget gate's input weights at an entry. -/
theorem W_f (c : Dev nD) (j g : Fin 128) :
    (V m c main_v3 : S128x128.Idx → EReal) (ix2 j g) = (m ((c : Thread nD τ).loc main_arg6) : S128x128.Idx → EReal) (ix2 j g) :=
  congrFun (V_v3 m c) (ix2 j g)

/-- The forget gate's child weights at an entry. -/
theorem U_f (c : Dev nD) (j g : Fin 128) :
    (V m c main_v4 : S128x128.Idx → EReal) (ix2 j g) = (m ((c : Thread nD τ).loc main_arg7) : S128x128.Idx → EReal) (ix2 j g) :=
  congrFun (V_v4 m c) (ix2 j g)

/-! ## The block indices over the grid -/

/-- The printed index maps, decided over the 64 points: the per-node windows and the output move along the node
    axis with the point, every other block index is zero. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = 0 ∧ win0_8.index t (1 : Fin 3) = t.val ∧ win0_8.index t (2 : Fin 3) = 0 :=
  (by decide +kernel : ∀ t : Fin grid0.N, _)

/-- The node that row `r` of a block at point `t` holds. -/
def node (t : Fin cfg0.N) (r : Fin 2048) : Fin 131072 :=
  ⟨2048 * t.val + r.val, by have := t.isLt; have hN : cfg0.N = 64 := N_0; omega⟩

/-! ## The input windows' blocks, entry by entry -/

/-- Row `r` of the input block at point `t` is the input row of node `2048·t + r`. -/
theorem blk_x (c : Dev nD) (t : Fin cfg0.N) (r : Fin 2048) (j : Fin 128) :
    (iblk m c 0 t : S2048x128.Idx → EReal) (ix2 r j) = (m ((c : Thread nD τ).loc main_arg0) : S131072x128.Idx → EReal) (ix2 (node t r) j) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 2048 + 1 * r.val = 2048 * t.val + r.val; rw [e0]; omega
  | ⟨1, _⟩ => show win0_0.index t (1 : Fin 2) * 128 + 1 * j.val = j.val; rw [e1]; omega

/-- Row `r`, child `k` of the child-hidden block at point `t` is child `k`'s hidden row of node `2048·t + r`. -/
theorem blk_h (c : Dev nD) (t : Fin cfg0.N) (r : Fin 2048) (k : Fin 4) (j : Fin 128) :
    (iblk m c 1 t : S2048x4x128.Idx → EReal) (ix3 r k j) = (m ((c : Thread nD τ).loc main_arg1) : S131072x4x128.Idx → EReal) (ix3 (node t r) k j) := by
  obtain ⟨-, -, e0, e1, e2, -⟩ := idx_facts t
  unfold iblk
  rw [View.read_apply]
  show V m c main_arg1 _ = _
  rw [V_main_arg1]
  congr 1
  funext a
  apply Fin.ext
  match a with
  | ⟨0, _⟩ => show win0_1.index t (0 : Fin 3) * 2048 + 1 * r.val = 2048 * t.val + r.val; rw [e0]; omega
  | ⟨1, _⟩ => show win0_1.index t (1 : Fin 3) * 4 + 1 * k.val = k.val; rw [e1]; omega
  | ⟨2, _⟩ => show win0_1.index t (2 : Fin 3) * 128 + 1 * j.val = j.val; rw [e2]; omega

/-- Row `r`, child `k` of the child-memory block at point `t` is child `k`'s memory row of node `2048·t + r`. -/
theorem blk_c (c : Dev nD) (t : Fin cfg0.N) (r : Fin 2048) (k : Fin 4) (j : Fin 128) :
    (iblk m c 2 t : S2048x4x128.Idx → EReal) (ix3 r k j) = (m ((c : Thread nD τ).loc main_arg2) : S131072x4x128.Idx → EReal) (ix3 (node t r) k j) := by
  obtain ⟨-, -, -, -, -, e0, e1, e2, -⟩ := idx_facts t
  unfold iblk
  rw [View.read_apply]
  show V m c main_arg2 _ = _
  rw [V_main_arg2]
  congr 1
  funext a
  apply Fin.ext
  match a with
  | ⟨0, _⟩ => show win0_2.index t (0 : Fin 3) * 2048 + 1 * r.val = 2048 * t.val + r.val; rw [e0]; omega
  | ⟨1, _⟩ => show win0_2.index t (1 : Fin 3) * 4 + 1 * k.val = k.val; rw [e1]; omega
  | ⟨2, _⟩ => show win0_2.index t (2 : Fin 3) * 128 + 1 * j.val = j.val; rw [e2]; omega

/-- The fused-weight window holds the whole fused matrix at every point. -/
theorem blk_Wcat (c : Dev nD) (t : Fin cfg0.N) (k : Fin 256) (g : Fin 384) :
    (iblk m c 3 t : S256x384.Idx → EReal) (ix2 k g) = (V m c main_v1 : S256x384.Idx → EReal) (ix2 k g) := by
  obtain ⟨-, -, -, -, -, -, -, -, e0, e1, -⟩ := idx_facts t
  unfold iblk
  rw [View.read_apply]
  show V m c main_v1 _ = _
  congr 1
  funext a
  apply Fin.ext
  match a with
  | ⟨0, _⟩ => show win0_3.index t (0 : Fin 2) * 256 + 1 * k.val = k.val; rw [e0]; omega
  | ⟨1, _⟩ => show win0_3.index t (1 : Fin 2) * 384 + 1 * g.val = g.val; rw [e1]; omega

/-- The gate-bias window holds the whole bias row at every point. -/
theorem blk_bi (c : Dev nD) (t : Fin cfg0.N) (g : Fin 384) :
    (iblk m c 4 t : S1x384.Idx → EReal) (ix2 (0 : Fin 1) g) = (V m c main_v2 : S1x384.Idx → EReal) (ix2 (0 : Fin 1) g) := by
  obtain ⟨-, -, -, -, -, -, -, -, -, -, e0, e1, -⟩ := idx_facts t
  unfold iblk
  rw [View.read_apply]
  show V m c main_v2 _ = _
  congr 1
  funext a
  apply Fin.ext
  match a with
  | ⟨0, _⟩ => show win0_4.index t (0 : Fin 2) * 1 + 1 * 0 = 0; rw [e0]
  | ⟨1, _⟩ => show win0_4.index t (1 : Fin 2) * 384 + 1 * g.val = g.val; rw [e1]; omega

/-- The window of the forget gate's input weights holds the whole matrix at every point. -/
theorem blk_Wf (c : Dev nD) (t : Fin cfg0.N) (j g : Fin 128) :
    (iblk m c 5 t : S128x128.Idx → EReal) (ix2 j g) = (V m c main_v3 : S128x128.Idx → EReal) (ix2 j g) := by
  obtain ⟨-, -, -, -, -, -, -, -, -, -, -, -, e0, e1, -⟩ := idx_facts t
  unfold iblk
  rw [View.read_apply]
  show V m c main_v3 _ = _
  congr 1
  funext a
  apply Fin.ext
  match a with
  | ⟨0, _⟩ => show win0_5.index t (0 : Fin 2) * 128 + 1 * j.val = j.val; rw [e0]; omega
  | ⟨1, _⟩ => show win0_5.index t (1 : Fin 2) * 128 + 1 * g.val = g.val; rw [e1]; omega

/-- The window of the forget gate's child weights holds the whole matrix at every point. -/
theorem blk_Uf (c : Dev nD) (t : Fin cfg0.N) (j g : Fin 128) :
    (iblk m c 6 t : S128x128.Idx → EReal) (ix2 j g) = (V m c main_v4 : S128x128.Idx → EReal) (ix2 j g) := by
  obtain ⟨-, -, -, -, -, -, -, -, -, -, -, -, -, -, e0, e1, -⟩ := idx_facts t
  unfold iblk
  rw [View.read_apply]
  show V m c main_v4 _ = _
  congr 1
  funext a
  apply Fin.ext
  match a with
  | ⟨0, _⟩ => show win0_6.index t (0 : Fin 2) * 128 + 1 * j.val = j.val; rw [e0]; omega
  | ⟨1, _⟩ => show win0_6.index t (1 : Fin 2) * 128 + 1 * g.val = g.val; rw [e1]; omega

/-- The forget-bias window holds the whole bias row at every point. -/
theorem blk_bf (c : Dev nD) (t : Fin cfg0.N) (g : Fin 128) :
    (iblk m c 7 t : S1x128.Idx → EReal) (ix2 (0 : Fin 1) g) = (V m c main_v5 : S1x128.Idx → EReal) (ix2 (0 : Fin 1) g) := by
  obtain ⟨-, -, -, -, -, -, -, -, -, -, -, -, -, -, -, -, e0, e1, -⟩ := idx_facts t
  unfold iblk
  rw [View.read_apply]
  show V m c main_v5 _ = _
  congr 1
  funext a
  apply Fin.ext
  match a with
  | ⟨0, _⟩ => show win0_7.index t (0 : Fin 2) * 1 + 1 * 0 = 0; rw [e0]
  | ⟨1, _⟩ => show win0_7.index t (1 : Fin 2) * 128 + 1 * g.val = g.val; rw [e1]; omega

end Cert.KernelIdeal.Hand

end
-- ==== Proof.BodyCell.lean ====
/-
  What the kernel's body leaves in its output block, at an index, is the Tree-LSTM node update of that row of the block.

  Row r of the block is one node. The body forms the three gates' pre-activation as ONE 256-deep contraction of the
  row [x | h0 + h1 + h2 + h3] against the fused weights: split at 128 (`TreeLstm.sum_cat`) it is the input row against
  the upper half plus the summed child row against the lower half, and the four child rows added left to right are
  their sum (`TreeLstm.sum4`). Each forget gate is the logistic of the input row against W_f, plus the child's row
  against U_f, plus the bias; the memory accumulates the four forget terms one by one onto input gate × candidate, which
  is that product plus their sum (`TreeLstm.acc4`). Plane 0 of the block is output gate × tanh(memory), plane 1 the
  memory. A change of float format is the identity on extended reals; no law beyond the three named is used.
-/
import proofs.«181173_j27504970564118_2_alg».proof.Proof.Spec
import proofs.«181173_j27504970564118_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ## The children's row blocks -/

/-- A child's row block read with its unit child axis dropped, at row r and column j. -/
theorem childCast_apply (v : FVec Ideal S2048x1x128 .f32) (r : Fin 2048) (j : Fin 128) :
    shapeCast S2048x128 v shapeCasts_S2048x1x128_S2048x128 (ix2 r j) = v (ix3 r (0 : Fin 1) j) := by
  refine shapeCast_apply v _ (ix2 r j) (ix3 r (0 : Fin 1) j) ?_
  rw [Shape.rowMajor_val_two, Shape.rowMajor_val_three]
  show (r.val * 1 + 0) * 128 + j.val = r.val * 128 + j.val
  omega

/-- The rectangle of child 0's rows inside the four-child block: its entry (r, 0, j) is the block's entry (r, 0, j). -/
theorem idx_child0 (r : Fin 2048) (j : Fin 128) :
    (r0_1 : Rect S2048x4x128).idx (ix3 r (0 : Fin 1) j) = ix3 r (0 : Fin 4) j := by
  refine funext fun a => Fin.ext ?_
  match a with
  | ⟨0, _⟩ => show 0 + 1 * r.val = r.val; omega
  | ⟨1, _⟩ => show 0 + 1 * 0 = 0; rfl
  | ⟨2, _⟩ => show 0 + 1 * j.val = j.val; omega

/-- The rectangle of child 1's rows inside the four-child block: its entry (r, 0, j) is the block's entry (r, 1, j). -/
theorem idx_child1 (r : Fin 2048) (j : Fin 128) :
    (r0_2 : Rect S2048x4x128).idx (ix3 r (0 : Fin 1) j) = ix3 r (1 : Fin 4) j := by
  refine funext fun a => Fin.ext ?_
  match a with
  | ⟨0, _⟩ => show 0 + 1 * r.val = r.val; omega
  | ⟨1, _⟩ => show 1 + 1 * 0 = 1; rfl
  | ⟨2, _⟩ => show 0 + 1 * j.val = j.val; omega

/-- The rectangle of child 2's rows inside the four-child block: its entry (r, 0, j) is the block's entry (r, 2, j). -/
theorem idx_child2 (r : Fin 2048) (j : Fin 128) :
    (r0_3 : Rect S2048x4x128).idx (ix3 r (0 : Fin 1) j) = ix3 r (2 : Fin 4) j := by
  refine funext fun a => Fin.ext ?_
  match a with
  | ⟨0, _⟩ => show 0 + 1 * r.val = r.val; omega
  | ⟨1, _⟩ => show 2 + 1 * 0 = 2; rfl
  | ⟨2, _⟩ => show 0 + 1 * j.val = j.val; omega

/-- The rectangle of child 3's rows inside the four-child block: its entry (r, 0, j) is the block's entry (r, 3, j). -/
theorem idx_child3 (r : Fin 2048) (j : Fin 128) :
    (r0_4 : Rect S2048x4x128).idx (ix3 r (0 : Fin 1) j) = ix3 r (3 : Fin 4) j := by
  refine funext fun a => Fin.ext ?_
  match a with
  | ⟨0, _⟩ => show 0 + 1 * r.val = r.val; omega
  | ⟨1, _⟩ => show 3 + 1 * 0 = 3; rfl
  | ⟨2, _⟩ => show 0 + 1 * j.val = j.val; omega

abbrev D128 := dot_S2048x128_S128x128_S2048x128_1_0_0_1_n_n
abbrev D256 := dot_S2048x256_S256x384_S2048x384_1_0_0_1_n_n

theorem D128_lhs0 (i : S2048x128.Idx) (c : D128.contr.Idx) : (D128.lhsIdx i c 0).val = (i 0).val := by
  unfold DotDims.lhsIdx
  rw [dif_neg (show ¬(0 : Fin S2048x128.rank) ∈ D128.lhsBatch by decide), dif_pos (show (0 : Fin S2048x128.rank) ∈ D128.lhsNonContracting by decide)]
  rfl
theorem D128_lhs1 (i : S2048x128.Idx) (c : D128.contr.Idx) : (D128.lhsIdx i c 1).val = (c ⟨0, by decide⟩).val :=
  D128.lhsIdx_val_of_single rfl i c
theorem D128_rhs0 (i : S2048x128.Idx) (c : D128.contr.Idx) : (D128.rhsIdx i c 0).val = (c ⟨0, by decide⟩).val :=
  D128.rhsIdx_val_of_single rfl i c
theorem D128_rhs1 (i : S2048x128.Idx) (c : D128.contr.Idx) : (D128.rhsIdx i c 1).val = (i 1).val := by
  unfold DotDims.rhsIdx
  rw [dif_neg (show ¬(1 : Fin S128x128.rank) ∈ D128.rhsBatch by decide), dif_pos (show (1 : Fin S128x128.rank) ∈ D128.rhsNonContracting by decide)]
  rfl

/-- A 128-deep product into a zero accumulator, at row r and column q: the sum over the contraction. -/
theorem matmul128_apply (a : FVec Ideal S2048x128 .bf16) (w : FVec Ideal S128x128 .bf16) (r : Fin 2048) (q : Fin 128) :
    matmul D128 none a w (constant (F := Ideal) S2048x128 .f32 0x00000000#32) (ix2 r q)
      = ∑ k : Fin 128, a (ix2 r k) * w (ix2 k q) := by
  simp only [matmul]
  rw [Ideal.matmul_constant_zero_apply, ← Equiv.sum_comp (contrEquiv1 D128 128 rfl rfl).symm]
  refine Finset.sum_congr rfl fun k _ => ?_
  have hk := contrEquiv1_symm_val D128 128 rfl rfl k
  have el : D128.lhsIdx (ix2 r q) ((contrEquiv1 D128 128 rfl rfl).symm k) = ix2 r k := funext fun a => Fin.ext (by
    match a with
    | ⟨0, _⟩ => exact D128_lhs0 _ _
    | ⟨1, _⟩ => exact (D128_lhs1 _ _).trans hk)
  have er : D128.rhsIdx (ix2 r q) ((contrEquiv1 D128 128 rfl rfl).symm k) = ix2 k q := funext fun a => Fin.ext (by
    match a with
    | ⟨0, _⟩ => exact (D128_rhs0 _ _).trans hk
    | ⟨1, _⟩ => exact D128_rhs1 _ _)
  rw [el, er]

theorem D256_lhs0 (i : S2048x384.Idx) (c : D256.contr.Idx) : (D256.lhsIdx i c 0).val = (i 0).val := by
  unfold DotDims.lhsIdx
  rw [dif_neg (show ¬(0 : Fin S2048x256.rank) ∈ D256.lhsBatch by decide), dif_pos (show (0 : Fin S2048x256.rank) ∈ D256.lhsNonContracting by decide)]
  rfl
theorem D256_lhs1 (i : S2048x384.Idx) (c : D256.contr.Idx) : (D256.lhsIdx i c 1).val = (c ⟨0, by decide⟩).val :=
  D256.lhsIdx_val_of_single rfl i c
theorem D256_rhs0 (i : S2048x384.Idx) (c : D256.contr.Idx) : (D256.rhsIdx i c 0).val = (c ⟨0, by decide⟩).val :=
  D256.rhsIdx_val_of_single rfl i c
theorem D256_rhs1 (i : S2048x384.Idx) (c : D256.contr.Idx) : (D256.rhsIdx i c 1).val = (i 1).val := by
  unfold DotDims.rhsIdx
  rw [dif_neg (show ¬(1 : Fin S256x384.rank) ∈ D256.rhsBatch by decide), dif_pos (show (1 : Fin S256x384.rank) ∈ D256.rhsNonContracting by decide)]
  rfl

/-- A 256-deep product into a zero accumulator, at row r and column g. -/
theorem matmul256_apply (a : FVec Ideal S2048x256 .bf16) (w : FVec Ideal S256x384 .bf16) (r : Fin 2048) (g : Fin 384) :
    matmul D256 none a w (constant (F := Ideal) S2048x384 .f32 0x00000000#32) (ix2 r g)
      = ∑ k : Fin 256, a (ix2 r k) * w (ix2 k g) := by
  simp only [matmul]
  rw [Ideal.matmul_constant_zero_apply, ← Equiv.sum_comp (contrEquiv1 D256 256 rfl rfl).symm]
  refine Finset.sum_congr rfl fun k _ => ?_
  have hk := contrEquiv1_symm_val D256 256 rfl rfl k
  have el : D256.lhsIdx (ix2 r g) ((contrEquiv1 D256 256 rfl rfl).symm k) = ix2 r k := funext fun a => Fin.ext (by
    match a with
    | ⟨0, _⟩ => exact D256_lhs0 _ _
    | ⟨1, _⟩ => exact (D256_lhs1 _ _).trans hk)
  have er : D256.rhsIdx (ix2 r g) ((contrEquiv1 D256 256 rfl rfl).symm k) = ix2 k g := funext fun a => Fin.ext (by
    match a with
    | ⟨0, _⟩ => exact (D256_rhs0 _ _).trans hk
    | ⟨1, _⟩ => exact D256_rhs1 _ _)
  rw [el, er]

/-! ## Pointwise and layout operations at an index -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The forget gates' bias row, broadcast down the rows. -/
theorem bias128_apply (b : FVec Ideal S1x128 .f32) (r : Fin 2048) (q : Fin 128) :
    broadcastTo S2048x128 b broadcasts_S1x128_S2048x128 (ix2 r q) = b (ix2 (0 : Fin 1) q) := by
  refine broadcastTo_apply b _ (ix2 r q) (ix2 (0 : Fin 1) q) fun a => ?_
  match a with
  | ⟨0, _⟩ => rfl
  | ⟨1, _⟩ => rfl

/-- The three gates' bias row, broadcast down the rows. -/
theorem bias384_apply (b : FVec Ideal S1x384 .f32) (r : Fin 2048) (g : Fin 384) :
    broadcastTo S2048x384 b broadcasts_S1x384_S2048x384 (ix2 r g) = b (ix2 (0 : Fin 1) g) := by
  refine broadcastTo_apply b _ (ix2 r g) (ix2 (0 : Fin 1) g) fun a => ?_
  match a with
  | ⟨0, _⟩ => rfl
  | ⟨1, _⟩ => rfl

/-- Columns 0..127 of the pre-activation: the input gate's. -/
theorem sliceI_apply (v : FVec Ideal S2048x384 .f32) (r : Fin 2048) (q : Fin 128) :
    extractStridedSlice S2048x128 ![0, 0] v slices_S2048x384_o0_0_S2048x128 (ix2 r q) = v (ix2 r (TreeLstm.gI q)) := by
  refine extractStridedSlice_apply _ v _ (ix2 r q) (ix2 r (TreeLstm.gI q)) fun a => ?_
  match a with
  | ⟨0, _⟩ => show r.val = 0 + r.val; omega
  | ⟨1, _⟩ => show q.val = 0 + q.val; omega

/-- Columns 128..255: the output gate's. -/
theorem sliceO_apply (v : FVec Ideal S2048x384 .f32) (r : Fin 2048) (q : Fin 128) :
    extractStridedSlice S2048x128 ![0, 128] v slices_S2048x384_o0_128_S2048x128 (ix2 r q) = v (ix2 r (TreeLstm.gO q)) := by
  refine extractStridedSlice_apply _ v _ (ix2 r q) (ix2 r (TreeLstm.gO q)) fun a => ?_
  match a with
  | ⟨0, _⟩ => show r.val = 0 + r.val; omega
  | ⟨1, _⟩ => show 128 + q.val = 128 + q.val; rfl

/-- Columns 256..383: the update candidate's. -/
theorem sliceU_apply (v : FVec Ideal S2048x384 .f32) (r : Fin 2048) (q : Fin 128) :
    extractStridedSlice S2048x128 ![0, 256] v slices_S2048x384_o0_256_S2048x128 (ix2 r q) = v (ix2 r (TreeLstm.gU q)) := by
  refine extractStridedSlice_apply _ v _ (ix2 r q) (ix2 r (TreeLstm.gU q)) fun a => ?_
  match a with
  | ⟨0, _⟩ => show r.val = 0 + r.val; omega
  | ⟨1, _⟩ => show 256 + q.val = 256 + q.val; rfl

/-- The input row and the summed child row side by side: columns 0..127 are the input row's. -/
theorem cat_top (a b : FVec Ideal S2048x128 .bf16) (r : Fin 2048) (j : Fin 128) :
    concatenate S2048x256 1 [⟨S2048x128, a⟩, ⟨S2048x128, b⟩] concatenates_S2048x128_S2048x128_S2048x256_d1 (ix2 r (TreeLstm.top j))
      = a (ix2 r j) := by
  refine concatenate_pair_apply_left 1 a b _ (ix2 r (TreeLstm.top j)) rfl (ix2 r j) fun c => ?_
  match c with
  | ⟨0, _⟩ => rfl
  | ⟨1, _⟩ => rfl

/-- Columns 128..255 are the summed child row's. -/
theorem cat_bot (a b : FVec Ideal S2048x128 .bf16) (r : Fin 2048) (j : Fin 128) :
    concatenate S2048x256 1 [⟨S2048x128, a⟩, ⟨S2048x128, b⟩] concatenates_S2048x128_S2048x128_S2048x256_d1 (ix2 r (TreeLstm.bot j))
      = b (ix2 r j) := by
  refine concatenate_pair_apply_right 1 a b _ (ix2 r (TreeLstm.bot j)) rfl rfl (ix2 r j) (fun c => ?_) ?_
  · match c with
    | ⟨0, _⟩ => exact fun _ => rfl
    | ⟨1, _⟩ => exact fun h => absurd rfl h
  · show j.val + 128 = 128 + j.val
    omega

/-! ## The three gates -/

/-- The three gates' pre-activation at row r and column g: the input row against the upper half of the fused
    weights, the children's rows added left to right against the lower half, then the bias. -/
theorem pay5_apply (v0 : Vec Ideal S2048x128 .f32) (v2 v4 v7 v10 : Vec Ideal S2048x1x128 .f32)
    (v14 : Vec Ideal S256x384 .bf16) (v16 : Vec Ideal S1x384 .f32) (r : Fin 2048) (g : Fin 384) :
    k0_pay5 v0 v2 v4 v7 v10 v14 v16 (ix2 r g) =
      (∑ j : Fin 128, v0 (ix2 r j) * v14 (ix2 (TreeLstm.top j) g)
        + ∑ j : Fin 128, (((v2 (ix3 r (0 : Fin 1) j) + v4 (ix3 r (0 : Fin 1) j)) + v7 (ix3 r (0 : Fin 1) j))
            + v10 (ix3 r (0 : Fin 1) j)) * v14 (ix2 (TreeLstm.bot j) g))
      + v16 (ix2 (0 : Fin 1) g) := by
  unfold k0_pay5 k0_pay4
  simp only [addf_apply, bias384_apply, shapeCast_self, matmul256_apply]
  rw [TreeLstm.sum_cat]
  simp only [cat_top, cat_bot, truncf_apply, addf_apply, childCast_apply]

/-- The input gate: the logistic of columns 0..127 of the pre-activation. -/
theorem pay6_apply (v0 : Vec Ideal S2048x128 .f32) (v2 v4 v7 v10 : Vec Ideal S2048x1x128 .f32)
    (v14 : Vec Ideal S256x384 .bf16) (v16 : Vec Ideal S1x384 .f32) (r : Fin 2048) (q : Fin 128) :
    k0_pay6 v0 v2 v4 v7 v10 v14 v16 (ix2 r q) = Ideal.logistic (k0_pay5 v0 v2 v4 v7 v10 v14 v16 (ix2 r (TreeLstm.gI q))) := by
  unfold k0_pay6
  simp only [logistic_apply, sliceI_apply]

/-- The output gate: the logistic of columns 128..255. -/
theorem pay7_apply (v0 : Vec Ideal S2048x128 .f32) (v2 v4 v7 v10 : Vec Ideal S2048x1x128 .f32)
    (v14 : Vec Ideal S256x384 .bf16) (v16 : Vec Ideal S1x384 .f32) (r : Fin 2048) (q : Fin 128) :
    k0_pay7 v0 v2 v4 v7 v10 v14 v16 (ix2 r q) = Ideal.logistic (k0_pay5 v0 v2 v4 v7 v10 v14 v16 (ix2 r (TreeLstm.gO q))) := by
  unfold k0_pay7
  simp only [logistic_apply, sliceO_apply]

/-- The update candidate: the hyperbolic tangent of columns 256..383. -/
theorem pay8_apply (v0 : Vec Ideal S2048x128 .f32) (v2 v4 v7 v10 : Vec Ideal S2048x1x128 .f32)
    (v14 : Vec Ideal S256x384 .bf16) (v16 : Vec Ideal S1x384 .f32) (r : Fin 2048) (q : Fin 128) :
    k0_pay8 v0 v2 v4 v7 v10 v14 v16 (ix2 r q) = Ideal.tanh (k0_pay5 v0 v2 v4 v7 v10 v14 v16 (ix2 r (TreeLstm.gU q))) := by
  unfold k0_pay8
  simp only [tanh_apply, sliceU_apply]

/-! ## The forget gates and the new memory -/

/-- The forget gates' input weights, child weights and bias pass through identity casts. -/
theorem pay9_eq (v : Vec Ideal S128x128 .bf16) : k0_pay9 v = v := by
  unfold k0_pay9; exact shapeCast_self _ _
theorem pay10_eq (v : Vec Ideal S128x128 .bf16) : k0_pay10 v = v := by
  unfold k0_pay10; exact shapeCast_self _ _
theorem pay11_eq (v : Vec Ideal S1x128 .f32) : k0_pay11 v = v := by
  unfold k0_pay11; exact shapeCast_self _ _

/-- The input row against the forget gates' input weights. -/
theorem pay12_apply (v1 : FVec Ideal S2048x128 .bf16) (v29 : FVec Ideal S128x128 .bf16) (r : Fin 2048) (q : Fin 128) :
    k0_pay12 v1 v29 (ix2 r q) = ∑ j : Fin 128, v1 (ix2 r j) * v29 (ix2 j q) := by
  unfold k0_pay12
  exact matmul128_apply _ _ r q

/-- The memory after three children: input gate times candidate, then each child's forget gate times its memory,
    accumulated left to right. -/
theorem pay13_apply (v1 : FVec Ideal S2048x128 .bf16) (v23 v27 : FVec Ideal S2048x128 .f32) (v29 v31 : FVec Ideal S128x128 .bf16)
    (v33 : FVec Ideal S1x128 .f32) (v36 v44 v48 v56 v60 v68 : FVec Ideal S2048x1x128 .f32) (r : Fin 2048) (q : Fin 128) :
    k0_pay13 v1 v23 v27 v29 v31 v33 v36 v44 v48 v56 v60 v68 (ix2 r q) =
      ((v23 (ix2 r q) * v27 (ix2 r q)
        + Ideal.logistic ((k0_pay12 v1 v29 (ix2 r q) + ∑ j : Fin 128, v36 (ix3 r (0 : Fin 1) j) * v31 (ix2 j q)) + v33 (ix2 (0 : Fin 1) q)) * v44 (ix3 r (0 : Fin 1) q))
        + Ideal.logistic ((k0_pay12 v1 v29 (ix2 r q) + ∑ j : Fin 128, v48 (ix3 r (0 : Fin 1) j) * v31 (ix2 j q)) + v33 (ix2 (0 : Fin 1) q)) * v56 (ix3 r (0 : Fin 1) q))
        + Ideal.logistic ((k0_pay12 v1 v29 (ix2 r q) + ∑ j : Fin 128, v60 (ix3 r (0 : Fin 1) j) * v31 (ix2 j q)) + v33 (ix2 (0 : Fin 1) q)) * v68 (ix3 r (0 : Fin 1) q) := by
  unfold k0_pay13
  simp only [addf_apply, mulf_apply, logistic_apply, bias128_apply, matmul128_apply, truncf_apply, childCast_apply]

/-- The new memory: the fourth child's term on top of the first three. -/
theorem pay1_apply (v31 : FVec Ideal S128x128 .bf16) (v33 : FVec Ideal S1x128 .f32) (v34 v71 : FVec Ideal S2048x128 .f32)
    (v72 v80 : FVec Ideal S2048x1x128 .f32) (r : Fin 2048) (q : Fin 128) :
    k0_pay1 v31 v33 v34 v71 v72 v80 (ix2 r q) =
      v71 (ix2 r q) + Ideal.logistic ((v34 (ix2 r q) + ∑ j : Fin 128, v72 (ix3 r (0 : Fin 1) j) * v31 (ix2 j q)) + v33 (ix2 (0 : Fin 1) q)) * v80 (ix3 r (0 : Fin 1) q) := by
  unfold k0_pay1
  simp only [addf_apply, mulf_apply, logistic_apply, bias128_apply, matmul128_apply, truncf_apply, childCast_apply]

/-! ## The two stored planes -/

/-- A row block with a leading unit plane axis added, at plane 0. -/
theorem planeCast_apply (v : FVec Ideal S2048x128 .f32) (r : Fin 2048) (q : Fin 128) :
    shapeCast S1x2048x128 v shapeCasts_S2048x128_S1x2048x128 (ix3 (0 : Fin 1) r q) = v (ix2 r q) := by
  refine shapeCast_apply v _ (ix3 (0 : Fin 1) r q) (ix2 r q) ?_
  rw [Shape.rowMajor_val_two, Shape.rowMajor_val_three]
  show r.val * 128 + q.val = (0 * 2048 + r.val) * 128 + q.val
  omega

/-- The stored hidden plane: output gate times the hyperbolic tangent of the new memory. -/
theorem pay2_apply (v25 : FVec Ideal S2048x128 .f32) (v31 : FVec Ideal S128x128 .bf16) (v33 : FVec Ideal S1x128 .f32)
    (v34 v71 : FVec Ideal S2048x128 .f32) (v72 v80 : FVec Ideal S2048x1x128 .f32) (r : Fin 2048) (q : Fin 128) :
    k0_pay2 v25 v31 v33 v34 v71 v72 v80 (ix3 (0 : Fin 1) r q) =
      v25 (ix2 r q) * Ideal.tanh (k0_pay1 v31 v33 v34 v71 v72 v80 (ix2 r q)) := by
  unfold k0_pay2
  simp only [planeCast_apply, mulf_apply, tanh_apply]

/-- The stored memory plane is the new memory. -/
theorem pay3_apply (v31 : FVec Ideal S128x128 .bf16) (v33 : FVec Ideal S1x128 .f32)
    (v34 v71 : FVec Ideal S2048x128 .f32) (v72 v80 : FVec Ideal S2048x1x128 .f32) (r : Fin 2048) (q : Fin 128) :
    k0_pay3 v31 v33 v34 v71 v72 v80 (ix3 (0 : Fin 1) r q) = k0_pay1 v31 v33 v34 v71 v72 v80 (ix2 r q) := by
  unfold k0_pay3
  simp only [planeCast_apply]

/-! ## The output block from its two stored planes -/

/-- Plane 1 of the block is the payload stored last, through the plane-1 rectangle. -/
theorem canon_plane1 (p1 p0 : Vec Ideal S1x2048x128 .f32) (r : Fin 2048) (q : Fin 128) :
    View.canon ([⟨r0_10, p1⟩, ⟨r0_9, p0⟩] : List (View.Piece (Elt Ideal) S2x2048x128 .f32)) (ix3 (1 : Fin 2) r q)
      = p1 (ix3 (0 : Fin 1) r q) := by
  have e : ix3 (1 : Fin 2) r q = r0_10.emb (ix3 (0 : Fin 1) r q) := funext fun a => Fin.ext (by
    match a with
    | ⟨0, _⟩ => show 1 = 1 + 1 * 0; rfl
    | ⟨1, _⟩ => show r.val = 0 + 1 * r.val; omega
    | ⟨2, _⟩ => show q.val = 0 + 1 * q.val; omega)
  exact (congrArg _ e).trans (View.canon_cons_emb r0_10 p1 _ _)

/-- An index of plane 0 lies outside the plane-1 rectangle. -/
theorem plane0_not_mem (r : Fin 2048) (q : Fin 128) : ix3 (0 : Fin 2) r q ∉ (r0_10 : Rect S2x2048x128).set := by
  intro hm
  have h := (Rect.mem_set_unit.mp hm ⟨0, by decide⟩).1
  have h1 : (1 : ℕ) ≤ 0 := h
  omega

/-- So plane 0 is the payload stored first, through the plane-0 rectangle. -/
theorem canon_plane0 (p1 p0 : Vec Ideal S1x2048x128 .f32) (r : Fin 2048) (q : Fin 128) :
    View.canon ([⟨r0_10, p1⟩, ⟨r0_9, p0⟩] : List (View.Piece (Elt Ideal) S2x2048x128 .f32)) (ix3 (0 : Fin 2) r q)
      = p0 (ix3 (0 : Fin 1) r q) := by
  have e : ix3 (0 : Fin 2) r q = r0_9.emb (ix3 (0 : Fin 1) r q) := funext fun a => Fin.ext (by
    match a with
    | ⟨0, _⟩ => show 0 = 0 + 1 * 0; rfl
    | ⟨1, _⟩ => show r.val = 0 + 1 * r.val; omega
    | ⟨2, _⟩ => show q.val = 0 + 1 * q.val; omega)
  refine (View.canon_cons_of_not_mem (⟨r0_10, p1⟩ : View.Piece (Elt Ideal) S2x2048x128 .f32) [⟨r0_9, p0⟩]
    (plane0_not_mem r q)).trans ?_
  exact (congrArg _ e).trans (View.canon_cons_emb r0_9 p0 _ _)

/-! ## Whole-buffer loads -/

/-- A load through the whole-shape rectangle at offset zero reads the buffer itself. -/
theorem ld_x (x : Vec Ideal S2048x128 .f32) : View.ld x r0_0 = x :=
  View.ld_unit_zero (funext fun a => by match a with | ⟨0, _⟩ => rfl | ⟨1, _⟩ => rfl) _ x
theorem ld_w (x : Vec Ideal S256x384 .bf16) : View.ld x r0_5 = x :=
  View.ld_unit_zero (funext fun a => by match a with | ⟨0, _⟩ => rfl | ⟨1, _⟩ => rfl) _ x
theorem ld_b (x : Vec Ideal S1x384 .f32) : View.ld x r0_6 = x :=
  View.ld_unit_zero (funext fun a => by match a with | ⟨0, _⟩ => rfl | ⟨1, _⟩ => rfl) _ x
theorem ld_wf (x : Vec Ideal S128x128 .bf16) : View.ld x r0_7 = x :=
  View.ld_unit_zero (funext fun a => by match a with | ⟨0, _⟩ => rfl | ⟨1, _⟩ => rfl) _ x
theorem ld_bf (x : Vec Ideal S1x128 .f32) : View.ld x r0_8 = x :=
  View.ld_unit_zero (funext fun a => by match a with | ⟨0, _⟩ => rfl | ⟨1, _⟩ => rfl) _ x

/-! ## The payloads of the body's own loads are the specification's -/

section Node

variable (x0 : Vec Ideal S2048x128 .f32) (x1 x2 : Vec Ideal S2048x4x128 .f32) (x3 : Vec Ideal S256x384 .bf16)
  (x4 : Vec Ideal S1x384 .f32) (x5 x6 : Vec Ideal S128x128 .bf16) (x7 : Vec Ideal S1x128 .f32) (r : Fin 2048)

/-- The input row as bf16 is the input row: a format change is the identity on extended reals. -/
theorem pay4_apply (v0 : Vec Ideal S2048x128 .f32) (j : Fin 128) : k0_pay4 v0 (ix2 r j) = v0 (ix2 r j) := rfl

/-- The pre-activation of row r at column g is the specification's: the four child rows added left to right are
    their sum. -/
theorem iou_apply (g : Fin 384) :
    k0_pay5 x0 (View.ld x1 r0_1) (View.ld x1 r0_2) (View.ld x1 r0_3) (View.ld x1 r0_4) x3 x4 (ix2 r g) =
      TreeLstm.iou (fun j => x0 (ix2 r j)) (fun k j => x1 (ix3 r k j))
        (fun j g => x3 (ix2 (TreeLstm.top j) g)) (fun j g => x3 (ix2 (TreeLstm.bot j) g)) (fun g => x4 (ix2 (0 : Fin 1) g)) g := by
  rw [pay5_apply]
  simp only [View.ld, idx_child0, idx_child1, idx_child2, idx_child3]
  have hs : ∀ j : Fin 128, ((x1 (ix3 r (0 : Fin 4) j) + x1 (ix3 r (1 : Fin 4) j)) + x1 (ix3 r (2 : Fin 4) j)) + x1 (ix3 r (3 : Fin 4) j)
      = ∑ k : Fin 4, x1 (ix3 r k j) := fun j => TreeLstm.sum4 (fun k => x1 (ix3 r k j))
  simp only [hs]
  rfl

/-- The new memory of row r at column q: the four forget terms accumulated one by one onto the input term are the
    input term plus their sum. -/
theorem cnew_apply (q : Fin 128) :
    k0_pay1 (k0_pay10 x6) (k0_pay11 x7) (k0_pay12 (k0_pay4 x0) (k0_pay9 x5))
      (k0_pay13 (k0_pay4 x0) (k0_pay6 x0 (View.ld x1 r0_1) (View.ld x1 r0_2) (View.ld x1 r0_3) (View.ld x1 r0_4) x3 x4) (k0_pay8 x0 (View.ld x1 r0_1) (View.ld x1 r0_2) (View.ld x1 r0_3) (View.ld x1 r0_4) x3 x4) (k0_pay9 x5) (k0_pay10 x6) (k0_pay11 x7)
        (View.ld x1 r0_1) (View.ld x2 r0_1) (View.ld x1 r0_2) (View.ld x2 r0_2) (View.ld x1 r0_3) (View.ld x2 r0_3))
      (View.ld x1 r0_4) (View.ld x2 r0_4) (ix2 r q) =
      TreeLstm.cnew (fun j => x0 (ix2 r j)) (fun k j => x1 (ix3 r k j)) (fun k j => x2 (ix3 r k j))
        (fun j g => x3 (ix2 (TreeLstm.top j) g)) (fun j g => x3 (ix2 (TreeLstm.bot j) g)) (fun g => x4 (ix2 (0 : Fin 1) g))
        (fun j g => x5 (ix2 j g)) (fun j g => x6 (ix2 j g)) (fun g => x7 (ix2 (0 : Fin 1) g)) q := by
  rw [pay1_apply, pay13_apply, pay6_apply, pay8_apply, iou_apply, iou_apply]
  simp only [pay9_eq, pay10_eq, pay11_eq, pay12_apply, pay4_apply, truncf_apply, View.ld, idx_child0, idx_child1, idx_child2, idx_child3]
  exact TreeLstm.acc4 _ (fun k => TreeLstm.forget (fun j => x0 (ix2 r j)) (fun k j => x1 (ix3 r k j))
        (fun j g => x5 (ix2 j g)) (fun j g => x6 (ix2 j g)) (fun g => x7 (ix2 (0 : Fin 1) g)) k q * x2 (ix3 r k q))

/-- The new hidden state of row r at column q. -/
theorem hnew_apply (q : Fin 128) :
    k0_pay2 (k0_pay7 x0 (View.ld x1 r0_1) (View.ld x1 r0_2) (View.ld x1 r0_3) (View.ld x1 r0_4) x3 x4) (k0_pay10 x6) (k0_pay11 x7) (k0_pay12 (k0_pay4 x0) (k0_pay9 x5))
      (k0_pay13 (k0_pay4 x0) (k0_pay6 x0 (View.ld x1 r0_1) (View.ld x1 r0_2) (View.ld x1 r0_3) (View.ld x1 r0_4) x3 x4) (k0_pay8 x0 (View.ld x1 r0_1) (View.ld x1 r0_2) (View.ld x1 r0_3) (View.ld x1 r0_4) x3 x4) (k0_pay9 x5) (k0_pay10 x6) (k0_pay11 x7)
        (View.ld x1 r0_1) (View.ld x2 r0_1) (View.ld x1 r0_2) (View.ld x2 r0_2) (View.ld x1 r0_3) (View.ld x2 r0_3))
      (View.ld x1 r0_4) (View.ld x2 r0_4) (ix3 (0 : Fin 1) r q) =
      TreeLstm.hnew (fun j => x0 (ix2 r j)) (fun k j => x1 (ix3 r k j)) (fun k j => x2 (ix3 r k j))
        (fun j g => x3 (ix2 (TreeLstm.top j) g)) (fun j g => x3 (ix2 (TreeLstm.bot j) g)) (fun g => x4 (ix2 (0 : Fin 1) g))
        (fun j g => x5 (ix2 j g)) (fun j g => x6 (ix2 j g)) (fun g => x7 (ix2 (0 : Fin 1) g)) q := by
  rw [pay2_apply, cnew_apply, pay7_apply, iou_apply]
  rfl

end Node

/-- Entry `(s, r, q)` of the output block the body leaves is plane `s`, column `q` of the update of the node in row `r`
    of the input blocks; the fused 256-row weight block supplies the input weights (upper half) and the child weights
    (lower half). -/
theorem out_apply
    (x0 : Vec Ideal S2048x128 .f32) (x1 x2 : Vec Ideal S2048x4x128 .f32) (x3 : Vec Ideal S256x384 .bf16)
    (x4 : Vec Ideal S1x384 .f32) (x5 x6 : Vec Ideal S128x128 .bf16) (x7 : Vec Ideal S1x128 .f32)
    (s : Fin 2) (r : Fin 2048) (q : Fin 128) :
    Gen.out0_8 (F := Ideal) x0 x1 x2 x3 x4 x5 x6 x7 (ix3 s r q) =
      TreeLstm.cell (fun j => x0 (ix2 r j)) (fun k j => x1 (ix3 r k j)) (fun k j => x2 (ix3 r k j))
        (fun j g => x3 (ix2 (TreeLstm.top j) g)) (fun j g => x3 (ix2 (TreeLstm.bot j) g)) (fun g => x4 (ix2 (0 : Fin 1) g))
        (fun j g => x5 (ix2 j g)) (fun j g => x6 (ix2 j g)) (fun g => x7 (ix2 (0 : Fin 1) g)) s q := by
  unfold Gen.out0_8
  rw [ld_x x0, ld_w x3, ld_b x4, ld_wf x5, ld_wf x6, ld_bf x7]
  obtain rfl | rfl : s = 0 ∨ s = 1 := by
    rcases s with ⟨_ | _ | n, h⟩
    · exact Or.inl rfl
    · exact Or.inr rfl
    · omega
  · refine (canon_plane0 _ _ r q).trans ?_
    rw [TreeLstm.cell_zero]
    exact hnew_apply x0 x1 x2 x3 x4 x5 x6 x7 r q
  · refine (canon_plane1 _ _ r q).trans ?_
    rw [TreeLstm.cell_one]
    exact (pay3_apply _ _ _ _ _ _ r q).trans (cnew_apply x0 x1 x2 x3 x4 x5 x6 x7 r q)

end Cert.KernelIdeal.Body

end
-- ==== Proof.Blocks.lean ====
/-
  From blocks to the whole array: every grid point writes back the block of ONE function of the argument arrays —
  the layer's result — and the 64 blocks tile the result array along the node axis, so the array ends holding that
  function.
-/
import proofs.«181173_j27504970564118_2_alg».proof.Proof.Result
import proofs.«181173_j27504970564118_2_alg».proof.Proof.Windows
import proofs.«181173_j27504970564118_2_alg».proof.Proof.BodyCell
import proofs.«181173_j27504970564118_2_alg».proof.Proof.Gen.KernelIdeal.Value
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer's result of the argument arrays as launched. -/
abbrev layer (c : Dev nD) : S2x131072x128.Idx → EReal :=
  TreeLstm.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Entry `(s, r, q)` of the output block at point `t` sits at `(s, 2048·t + r, q)` in the result array. -/
theorem emb_out (t : Fin cfg0.N) (s : Fin 2) (r : Fin 2048) (q : Fin 128) :
    ((cfg0.win 8).blk t).view.emb (ix3 s r q) = ix3 s (node t r) q := by
  obtain ⟨-, -, -, -, -, -, -, -, -, -, -, -, -, -, -, -, -, -, e0, e1, e2⟩ := idx_facts t
  funext a
  apply Fin.ext
  match a with
  | ⟨0, _⟩ => show win0_8.index t (0 : Fin 3) * 2 + 1 * s.val = s.val; rw [e0]; omega
  | ⟨1, _⟩ => show win0_8.index t (1 : Fin 3) * 2048 + 1 * r.val = 2048 * t.val + r.val; rw [e1]; omega
  | ⟨2, _⟩ => show win0_8.index t (2 : Fin 3) * 128 + 1 * q.val = q.val; rw [e2]; omega

/-! ## The rows a block's entry reads, as rows of the argument arrays -/

theorem rows_x (c : Dev nD) (t : Fin cfg0.N) (r : Fin 2048) :
    (fun j : Fin 128 => (iblk m c 0 t : S2048x128.Idx → EReal) (ix2 r j)) = fun j => ((m ((c : Thread nD τ).loc main_arg0)) : S131072x128.Idx → EReal) (ix2 (node t r) j) :=
  funext fun j => blk_x m c t r j
theorem rows_h (c : Dev nD) (t : Fin cfg0.N) (r : Fin 2048) :
    (fun (k : Fin 4) (j : Fin 128) => (iblk m c 1 t : S2048x4x128.Idx → EReal) (ix3 r k j)) = fun k j => ((m ((c : Thread nD τ).loc main_arg1)) : S131072x4x128.Idx → EReal) (ix3 (node t r) k j) :=
  funext fun k => funext fun j => blk_h m c t r k j
theorem rows_c (c : Dev nD) (t : Fin cfg0.N) (r : Fin 2048) :
    (fun (k : Fin 4) (j : Fin 128) => (iblk m c 2 t : S2048x4x128.Idx → EReal) (ix3 r k j)) = fun k j => ((m ((c : Thread nD τ).loc main_arg2)) : S131072x4x128.Idx → EReal) (ix3 (node t r) k j) :=
  funext fun k => funext fun j => blk_c m c t r k j
theorem rows_Wi (c : Dev nD) (t : Fin cfg0.N) :
    (fun (j : Fin 128) (g : Fin 384) => (iblk m c 3 t : S256x384.Idx → EReal) (ix2 (TreeLstm.top j) g)) = fun j g => ((m ((c : Thread nD τ).loc main_arg3)) : S128x384.Idx → EReal) (ix2 j g) :=
  funext fun j => funext fun g => (blk_Wcat m c t (TreeLstm.top j) g).trans (Wcat_top m c j g)
theorem rows_Ui (c : Dev nD) (t : Fin cfg0.N) :
    (fun (j : Fin 128) (g : Fin 384) => (iblk m c 3 t : S256x384.Idx → EReal) (ix2 (TreeLstm.bot j) g)) = fun j g => ((m ((c : Thread nD τ).loc main_arg4)) : S128x384.Idx → EReal) (ix2 j g) :=
  funext fun j => funext fun g => (blk_Wcat m c t (TreeLstm.bot j) g).trans (Wcat_bot m c j g)
theorem rows_bi (c : Dev nD) (t : Fin cfg0.N) :
    (fun g : Fin 384 => (iblk m c 4 t : S1x384.Idx → EReal) (ix2 (0 : Fin 1) g)) = fun g => ((m ((c : Thread nD τ).loc main_arg5)) : S384.Idx → EReal) (ix1 g) :=
  funext fun g => (blk_bi m c t g).trans (bias_iou m c g)
theorem rows_Wf (c : Dev nD) (t : Fin cfg0.N) :
    (fun (j g : Fin 128) => (iblk m c 5 t : S128x128.Idx → EReal) (ix2 j g)) = fun j g => ((m ((c : Thread nD τ).loc main_arg6)) : S128x128.Idx → EReal) (ix2 j g) :=
  funext fun j => funext fun g => (blk_Wf m c t j g).trans (W_f m c j g)
theorem rows_Uf (c : Dev nD) (t : Fin cfg0.N) :
    (fun (j g : Fin 128) => (iblk m c 6 t : S128x128.Idx → EReal) (ix2 j g)) = fun j g => ((m ((c : Thread nD τ).loc main_arg7)) : S128x128.Idx → EReal) (ix2 j g) :=
  funext fun j => funext fun g => (blk_Uf m c t j g).trans (U_f m c j g)
theorem rows_bf (c : Dev nD) (t : Fin cfg0.N) :
    (fun g : Fin 128 => (iblk m c 7 t : S1x128.Idx → EReal) (ix2 (0 : Fin 1) g)) = fun g => ((m ((c : Thread nD τ).loc main_arg8)) : S128.Idx → EReal) (ix1 g) :=
  funext fun g => (blk_bf m c t g).trans (bias_f m c g)

/-- The body's output block at `(s, r, q)` is the update of node `2048·t + r`: the body leaves each row's update in
    the block, and the row's inputs are that node's rows of the argument arrays. -/
theorem out_at (c : Dev nD) (t : Fin cfg0.N) (s : Fin 2) (r : Fin 2048) (q : Fin 128) :
    @Eq EReal (out0_8 (F := Ideal) (iblk m c 0 t) (iblk m c 1 t) (iblk m c 2 t) (iblk m c 3 t) (iblk m c 4 t) (iblk m c 5 t) (iblk m c 6 t) (iblk m c 7 t) (ix3 s r q))
      (TreeLstm.rowCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) s (node t r) q) := by
  refine (Body.out_apply (iblk m c 0 t) (iblk m c 1 t) (iblk m c 2 t) (iblk m c 3 t) (iblk m c 4 t) (iblk m c 5 t) (iblk m c 6 t) (iblk m c 7 t) s r q).trans ?_
  unfold TreeLstm.rowCell
  rw [rows_x m c t r, rows_h m c t r, rows_c m c t r, rows_Wi m c t, rows_Ui m c t, rows_bi m c t, rows_Wf m c t, rows_Uf m c t, rows_bf m c t]

/-- What point `t` writes back is block `t` of the layer's result. -/
theorem flushed_eq (c : Dev nD) (t : Fin cfg0.N) :
    (dats m 0 c).flushed 8 t = ((cfg0.win 8).blk t).view.read (Elt Ideal) (layer m c) := by
  rw [Value.flushed8]
  funext y
  obtain ⟨s, r, q, rfl⟩ : ∃ (s : Fin 2) (r : Fin 2048) (q : Fin 128), y = ix3 s r q := ⟨y 0, y 1, y 2, eq_ix3 y⟩
  rw [View.read_apply, emb_out]
  exact out_at m c t s r q

/-- An index of the result array is in point `t`'s block iff each coordinate is in the block's range on its axis. -/
theorem mem_blk (t : Fin cfg0.N) (i : S2x131072x128.Idx) :
    i ∈ ((cfg0.win 8).blk t).view.set ↔ ∀ a : Fin 3, win0_8.index t a * S2x2048x128.size a ≤ (i a).val ∧ (i a).val < win0_8.index t a * S2x2048x128.size a + S2x2048x128.size a := by
  show i ∈ ((View.whole main_v6).slice (win0_8.rect t)).set ↔ _
  rw [View.set_slice_whole, Rect.mem_set_unit]
  exact Iff.rfl

/-- Node `n` is in the block of point `n / 2048`: the blocks cover the array. -/
theorem cover (i : S2x131072x128.Idx) :
    ∃ t : Fin cfg0.N, (cfg0.win 8).flush t = true ∧ i ∈ ((cfg0.win 8).blk t).view.set := by
  have hi0 : (i 0).val < 2 := (i 0).isLt
  have hi1 : (i 1).val < 131072 := (i 1).isLt
  have hi2 : (i 2).val < 128 := (i 2).isLt
  have hN : cfg0.N = 64 := N_0
  obtain ⟨t, ht⟩ : ∃ t : Fin cfg0.N, t.val = (i 1).val / 2048 := ⟨⟨(i 1).val / 2048, by omega⟩, rfl⟩
  obtain ⟨-, -, -, -, -, -, -, -, -, -, -, -, -, -, -, -, -, -, e0, e1, e2⟩ := idx_facts t
  refine ⟨t, flush0_8 t, ?_⟩
  rw [mem_blk]
  intro a
  match a with
  | ⟨0, _⟩ => show win0_8.index t (0 : Fin 3) * 2 ≤ (i 0).val ∧ (i 0).val < win0_8.index t (0 : Fin 3) * 2 + 2; rw [e0]; omega
  | ⟨1, _⟩ => show win0_8.index t (1 : Fin 3) * 2048 ≤ (i 1).val ∧ (i 1).val < win0_8.index t (1 : Fin 3) * 2048 + 2048; rw [e1]; omega
  | ⟨2, _⟩ => show win0_8.index t (2 : Fin 3) * 128 ≤ (i 2).val ∧ (i 2).val < win0_8.index t (2 : Fin 3) * 128 + 128; rw [e2]; omega

/-- The result array after the run is the layer's result. -/
theorem final (c : Dev nD) : (dats m 0 c).arrAt 8 cfg0.N = layer m c :=
  (dats m 0 c).arrAt_eq_of_cover 8 (layer m c) (fun t _ => flushed_eq m c t) cover

/-- The kernel's run, read: the result array at the layer's result of the arguments, the arguments unchanged. -/
theorem run : θ_run defs (onTc (τ := τ) (main (F := Ideal))) ⟨m, fun _ => 0, ρ⟩ fun r => ∀ c : Dev nD,
      r.2.mem ((c : Thread nD τ).loc main_v6) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Hand

end
-- ==== Proof.RefCell.lean ====
/-
  The reference's result at an index is the Tree-LSTM node update of that index's node.

  The reference is read one operation at a time, each intermediate array at explicit coordinates: the summed child
  state at `(n, j)`; the 384-wide gate pre-activation at `(n, g)`; the input gate, output gate and update candidate at
  `(n, q)` (columns `q`, `128 + q`, `256 + q` of the pre-activation); each child's forget gate at `(n, k, q)`; the new
  memory and the new hidden state at `(n, q)`; and the stacked pair at `(s, n, q)`. Each is the specification's term
  of the same name. The only laws used are that the zero word is `0` and the word `0x3F800000` is `1`, that `0 + a = a`
  (both child-axis sums are started at the zero word), and that negate, exponential, add one, divide one by the result
  is the logistic function by definition. Every other step identifies an index map composed by the layout operations
  (slices, broadcasts, the contraction's operand indices) with the index built from literal coordinates.
-/
import proofs.«181173_j27504970564118_2_alg».proof.Proof.Spec
import proofs.«181173_j27504970564118_2_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx

section Stages

variable (x0 : (⟨S131072x128, .f32⟩ : BufTy).Contents (Elt Ideal)) (x1 x2 : (⟨S131072x4x128, .f32⟩ : BufTy).Contents (Elt Ideal))
    (x3 x4 : (⟨S128x384, .f32⟩ : BufTy).Contents (Elt Ideal)) (x5 : (⟨S384, .f32⟩ : BufTy).Contents (Elt Ideal))
    (x6 x7 : (⟨S128x128, .f32⟩ : BufTy).Contents (Elt Ideal)) (x8 : (⟨S128, .f32⟩ : BufTy).Contents (Elt Ideal))

/-- The word `0x3F800000` is the real number one. -/
theorem one_word : Ideal.ofBits .f32 0x3F800000#32 = 1 := by
  simp [Ideal.ofBits, Ideal.ieee, -EReal.coe_mul]; norm_num

/-- The summed child state at `(n, j)`: the sum over the child axis started at the zero word. -/
theorem hsum_at (n : Fin 131072) (j : Fin 128) :
    Read.val_main_v0 (F := Ideal) x1 (ix2 n j) = TreeLstm.hsum (fun k j => x1 (ix3 n k j)) j := by
  rw [Read.val_main_v0_apply, Read.val_main_cst_apply, Ideal.ofBits_def, Ideal.ofBits_zero_f32, zero_add]
  unfold TreeLstm.hsum
  refine Finset.sum_congr rfl fun k _ => ?_
  exact congrArg x1 (funext fun a => Fin.ext (by match a with | ⟨0, _⟩ => rfl | ⟨1, _⟩ => rfl | ⟨2, _⟩ => rfl))

/-- The three gates' pre-activation at `(n, g)`: the two contractions over the input row and the summed child state,
    added, plus the bias read through its two broadcasts. -/
theorem iou_at (n : Fin 131072) (g : Fin 384) :
    Read.val_main_v6 (F := Ideal) x0 x1 x3 x4 x5 (ix2 n g) =
      TreeLstm.iou (fun j => x0 (ix2 n j)) (fun k j => x1 (ix3 n k j)) (fun j g => x3 (ix2 j g)) (fun j g => x4 (ix2 j g))
        (fun g => x5 (ix1 g)) g := by
  rw [Read.val_main_v6_apply, Read.val_main_v3_apply, Read.val_main_v1_apply, Read.val_main_v2_apply,
    Read.val_main_v5_apply, Read.val_main_v4_apply]
  unfold TreeLstm.iou
  simp only [Ideal.addf_def]
  refine congrArg₂ (· + ·) (congrArg₂ (· + ·) (Finset.sum_congr rfl fun k _ => ?_) (Finset.sum_congr rfl fun k _ => ?_)) ?_
  · refine congrArg₂ (· * ·) (congrArg x0 ?_) (congrArg x3 ?_)
    · exact funext fun a => Fin.ext (by match a with | ⟨0, _⟩ => rfl | ⟨1, _⟩ => rfl)
    · exact funext fun a => Fin.ext (by match a with | ⟨0, _⟩ => rfl | ⟨1, _⟩ => rfl)
  · refine congrArg₂ (· * ·) ((congrArg _ ?_).trans (hsum_at x1 n k)) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x5 (funext fun a => Fin.ext (by match a with | ⟨0, _⟩ => rfl))

/-- The input gate at `(n, q)`: the logistic function of the first block's column `q`. Negate, exponential, add one
    and divide one by the result is the logistic function's definition, the word `0x3F800000` being one. -/
theorem igate_at (n : Fin 131072) (q : Fin 128) :
    Read.val_main_v15 (F := Ideal) x0 x1 x3 x4 x5 (ix2 n q) =
      Ideal.logistic (TreeLstm.iou (fun j => x0 (ix2 n j)) (fun k j => x1 (ix3 n k j)) (fun j g => x3 (ix2 j g))
        (fun j g => x4 (ix2 j g)) (fun g => x5 (ix1 g)) (TreeLstm.gI q)) := by
  rw [Read.val_main_v15_apply, Read.val_main_v14_apply, Read.val_main_cst_1_apply, Read.val_main_v13_apply,
    Read.val_main_v12_apply, Read.val_main_cst_0_apply, Read.val_main_v11_apply, Read.val_main_v10_apply,
    Read.val_main_v7_apply]
  simp only [Ideal.hostDivf_def, Ideal.addf_def, Ideal.hostUnary_exp_def, Ideal.hostNegf_def, Ideal.negf_def,
    Ideal.ofBits_def, one_word]
  unfold Ideal.logistic
  refine congrArg (fun z => Ideal.div 1 (1 + Ideal.exp (-z))) ?_
  refine (congrArg _ ?_).trans (iou_at x0 x1 x3 x4 x5 n (TreeLstm.gI q))
  exact funext fun a => Fin.ext (by match a with | ⟨0, _⟩ => rfl | ⟨1, _⟩ => rfl)

/-- The output gate at `(n, q)`: the logistic function of the second block's column `q`. -/
theorem ogate_at (n : Fin 131072) (q : Fin 128) :
    Read.val_main_v21 (F := Ideal) x0 x1 x3 x4 x5 (ix2 n q) =
      Ideal.logistic (TreeLstm.iou (fun j => x0 (ix2 n j)) (fun k j => x1 (ix3 n k j)) (fun j g => x3 (ix2 j g))
        (fun j g => x4 (ix2 j g)) (fun g => x5 (ix1 g)) (TreeLstm.gO q)) := by
  rw [Read.val_main_v21_apply, Read.val_main_v20_apply, Read.val_main_cst_3_apply, Read.val_main_v19_apply,
    Read.val_main_v18_apply, Read.val_main_cst_2_apply, Read.val_main_v17_apply, Read.val_main_v16_apply,
    Read.val_main_v8_apply]
  simp only [Ideal.hostDivf_def, Ideal.addf_def, Ideal.hostUnary_exp_def, Ideal.hostNegf_def, Ideal.negf_def,
    Ideal.ofBits_def, one_word]
  unfold Ideal.logistic
  refine congrArg (fun z => Ideal.div 1 (1 + Ideal.exp (-z))) ?_
  refine (congrArg _ ?_).trans (iou_at x0 x1 x3 x4 x5 n (TreeLstm.gO q))
  exact funext fun a => Fin.ext (by match a with | ⟨0, _⟩ => rfl | ⟨1, _⟩ => rfl)

/-- The update candidate at `(n, q)`: the hyperbolic tangent of the third block's column `q`. -/
theorem ucand_at (n : Fin 131072) (q : Fin 128) :
    Read.val_main_v22 (F := Ideal) x0 x1 x3 x4 x5 (ix2 n q) =
      Ideal.tanh (TreeLstm.iou (fun j => x0 (ix2 n j)) (fun k j => x1 (ix3 n k j)) (fun j g => x3 (ix2 j g))
        (fun j g => x4 (ix2 j g)) (fun g => x5 (ix1 g)) (TreeLstm.gU q)) := by
  rw [Read.val_main_v22_apply, Read.val_main_v9_apply, Ideal.hostUnary_tanh_def]
  refine congrArg Ideal.tanh ?_
  refine (congrArg _ ?_).trans (iou_at x0 x1 x3 x4 x5 n (TreeLstm.gU q))
  exact funext fun a => Fin.ext (by match a with | ⟨0, _⟩ => rfl | ⟨1, _⟩ => rfl)

/-- Child `k`'s forget gate at `(n, k, q)`: the input row's contraction, broadcast over the child axis, plus the child's
    own contraction, plus the bias read through its two broadcasts; then the logistic function as above. -/
theorem fgate_at (n : Fin 131072) (k : Fin 4) (q : Fin 128) :
    Read.val_main_v36 (F := Ideal) x0 x1 x6 x7 x8 (ix3 n k q) =
      TreeLstm.forget (fun j => x0 (ix2 n j)) (fun k j => x1 (ix3 n k j)) (fun j g => x6 (ix2 j g)) (fun j g => x7 (ix2 j g))
        (fun g => x8 (ix1 g)) k q := by
  rw [Read.val_main_v36_apply, Read.val_main_v35_apply, Read.val_main_cst_5_apply, Read.val_main_v34_apply,
    Read.val_main_v33_apply, Read.val_main_cst_4_apply, Read.val_main_v32_apply, Read.val_main_v31_apply,
    Read.val_main_v30_apply, Read.val_main_v27_apply, Read.val_main_v26_apply, Read.val_main_v24_apply,
    Read.val_main_v23_apply, Read.val_main_v25_apply, Read.val_main_v29_apply, Read.val_main_v28_apply]
  simp only [Ideal.hostDivf_def, Ideal.addf_def, Ideal.hostUnary_exp_def, Ideal.hostNegf_def, Ideal.negf_def,
    Ideal.ofBits_def, one_word]
  unfold TreeLstm.forget Ideal.logistic
  refine congrArg (fun z => Ideal.div 1 (1 + Ideal.exp (-z))) ?_
  refine congrArg₂ (· + ·) (congrArg₂ (· + ·) (Finset.sum_congr rfl fun j _ => ?_) (Finset.sum_congr rfl fun j _ => ?_)) ?_
  · refine congrArg₂ (· * ·) (congrArg x0 ?_) (congrArg x6 ?_)
    · exact funext fun a => Fin.ext (by match a with | ⟨0, _⟩ => rfl | ⟨1, _⟩ => rfl)
    · exact funext fun a => Fin.ext (by match a with | ⟨0, _⟩ => rfl | ⟨1, _⟩ => rfl)
  · refine congrArg₂ (· * ·) (congrArg x1 ?_) (congrArg x7 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x8 (funext fun a => Fin.ext (by match a with | ⟨0, _⟩ => rfl))

/-- The node's new memory at `(n, q)`: input gate times candidate, plus the sum over the children, started at the zero
    word, of forget gate times the child's memory. -/
theorem cnew_at (n : Fin 131072) (q : Fin 128) :
    Read.val_main_v40 (F := Ideal) x0 x1 x2 x3 x4 x5 x6 x7 x8 (ix2 n q) =
      TreeLstm.cnew (fun j => x0 (ix2 n j)) (fun k j => x1 (ix3 n k j)) (fun k j => x2 (ix3 n k j))
        (fun j g => x3 (ix2 j g)) (fun j g => x4 (ix2 j g)) (fun g => x5 (ix1 g))
        (fun j g => x6 (ix2 j g)) (fun j g => x7 (ix2 j g)) (fun g => x8 (ix1 g)) q := by
  rw [Read.val_main_v40_apply, Read.val_main_v37_apply, Read.val_main_v39_apply, Read.val_main_cst_6_apply,
    igate_at, ucand_at]
  simp only [Ideal.addf_def, Ideal.mulf_def, Ideal.ofBits_def, Ideal.ofBits_zero_f32, zero_add]
  unfold TreeLstm.cnew
  refine congrArg (_ + ·) (Finset.sum_congr rfl fun k _ => ?_)
  have e : Read.idx_main_v39 (ix2 n q) k = ix3 n k q :=
    funext fun a => Fin.ext (by match a with | ⟨0, _⟩ => rfl | ⟨1, _⟩ => rfl | ⟨2, _⟩ => rfl)
  rw [e, Read.val_main_v38_apply, fgate_at, Ideal.mulf_def]

/-- The node's new hidden state at `(n, q)`: output gate times the hyperbolic tangent of the new memory. -/
theorem hnew_at (n : Fin 131072) (q : Fin 128) :
    Read.val_main_v42 (F := Ideal) x0 x1 x2 x3 x4 x5 x6 x7 x8 (ix2 n q) =
      TreeLstm.hnew (fun j => x0 (ix2 n j)) (fun k j => x1 (ix3 n k j)) (fun k j => x2 (ix3 n k j))
        (fun j g => x3 (ix2 j g)) (fun j g => x4 (ix2 j g)) (fun g => x5 (ix1 g))
        (fun j g => x6 (ix2 j g)) (fun j g => x7 (ix2 j g)) (fun g => x8 (ix1 g)) q := by
  rw [Read.val_main_v42_apply, Read.val_main_v41_apply, ogate_at, cnew_at]
  rfl

end Stages

/-- Entry `(s, n, q)` of the reference's stacked result is plane `s`, column `q` of node `n`'s update, computed from
    row `n` of the three per-node arrays and the whole weight arrays. -/
theorem ref_apply
    (x0 : (⟨S131072x128, .f32⟩ : BufTy).Contents (Elt Ideal)) (x1 x2 : (⟨S131072x4x128, .f32⟩ : BufTy).Contents (Elt Ideal))
    (x3 x4 : (⟨S128x384, .f32⟩ : BufTy).Contents (Elt Ideal)) (x5 : (⟨S384, .f32⟩ : BufTy).Contents (Elt Ideal))
    (x6 x7 : (⟨S128x128, .f32⟩ : BufTy).Contents (Elt Ideal)) (x8 : (⟨S128, .f32⟩ : BufTy).Contents (Elt Ideal))
    (s : Fin 2) (n : Fin 131072) (q : Fin 128) :
    Read.val_main_v45 (F := Ideal) x0 x1 x2 x3 x4 x5 x6 x7 x8 (ix3 s n q) =
      TreeLstm.cell (fun j => x0 (ix2 n j)) (fun k j => x1 (ix3 n k j)) (fun k j => x2 (ix3 n k j))
        (fun j g => x3 (ix2 j g)) (fun j g => x4 (ix2 j g)) (fun g => x5 (ix1 g))
        (fun j g => x6 (ix2 j g)) (fun j g => x7 (ix2 j g)) (fun g => x8 (ix1 g)) s q := by
  unfold Read.val_main_v45
  match s with
  | ⟨0, _⟩ =>
    -- plane 0 lies in the first piece: the new hidden state with a leading unit axis
    refine (concatenate_pair_apply_left (s₁ := S1x131072x128) (s₂ := S1x131072x128) (0 : Fin S2x131072x128.rank) _ _ _ _ rfl (ix3 (0 : Fin 1) n q)
      (fun b => by match b with | ⟨0, _⟩ => rfl | ⟨1, _⟩ => rfl | ⟨2, _⟩ => rfl)).trans ?_
    rw [Read.val_main_v43_apply]
    refine (congrArg _ ?_).trans (hnew_at x0 x1 x2 x3 x4 x5 x6 x7 x8 n q)
    exact funext fun a => Fin.ext (by match a with | ⟨0, _⟩ => rfl | ⟨1, _⟩ => rfl)
  | ⟨1, _⟩ =>
    -- plane 1 lies in the second piece, one past the first piece's single plane: the new memory with a leading unit axis
    refine (concatenate_pair_apply_right (s₁ := S1x131072x128) (s₂ := S1x131072x128) (0 : Fin S2x131072x128.rank) _ _ _ _ rfl rfl (ix3 (0 : Fin 1) n q)
      (fun b hb => by
        match b with
        | ⟨0, _⟩ => exact absurd rfl hb
        | ⟨1, _⟩ => rfl
        | ⟨2, _⟩ => rfl) rfl).trans ?_
    rw [Read.val_main_v44_apply]
    refine (congrArg _ ?_).trans (cnew_at x0 x1 x2 x3 x4 x5 x6 x7 x8 n q)
    exact funext fun a => Fin.ext (by match a with | ⟨0, _⟩ => rfl | ⟨1, _⟩ => rfl)

end Cert.ReferenceIdeal.RefValue

end
-- ==== Proof.lean ====
/-
  A Pallas kernel for the child-sum Tree-LSTM node update — 131072 nodes, four children each, width 128 — against
  the same update written in plain array operations, compared over the extended reals.

  The kernel streams 64 blocks of 2048 nodes. For a node with input row `x`, child hidden rows `h k` and child memory
  rows `c k` it forms the three gates' pre-activation as ONE 256-deep contraction of the row `[x, h 0 + h 1 + h 2 + h 3]`
  with the input weights stacked on the child weights, adds the bias, takes logistic, logistic and tanh of the three
  128-column slices, forms each child's forget gate `σ((x·Wf + h k·Uf) + bf)`, accumulates the new memory
  `(((i·u + f 0·c 0) + f 1·c 1) + f 2·c 2) + f 3·c 3` and stores `o·tanh(c')` and `c'` as the two planes of its output
  block. The reference sums the children first (`0 + Σ_k`), contracts `x` and the summed children separately and adds,
  spells the logistic function as `1 / (1 + e⁻ᶻ)`, and forms the memory as `i·u + (0 + Σ_k f k·c k)`.

  On the extended reals a change of float format is the identity, the logistic operation IS `1 / (1 + e⁻ᶻ)`, and the
  two spellings differ only in how sums are grouped: four terms added left to right against their sum from zero, one
  256-term sum against two 128-term sums, four accumulations onto `i·u` against `i·u` plus the sum. These need only
  commutativity and associativity of `+`, which hold for infinite entries too, so the inputs' finiteness is never used.

  Both programs are shown to end with the result array holding `TreeLstm.result` of the nine argument arrays
  (Proof/Spec.lean, Proof/Result.lean): the kernel through what each grid point writes back (Proof/BodyCell.lean: the
  body's output block entry by entry; Proof/Windows.lean: each window's block as rows of the arguments;
  Proof/Blocks.lean: the 64 blocks tile the array), the reference through its operations read one at a time
  (Proof/RefCell.lean). The kernel's idealization rewrote no operation, so there is nothing to preserve.
-/
import proofs.«181173_j27504970564118_2_alg».proof.Defs
import proofs.«181173_j27504970564118_2_alg».proof.Proof.Gen.Kernel
import proofs.«181173_j27504970564118_2_alg».proof.Proof.Gen.Kernel.Skeleton
import proofs.«181173_j27504970564118_2_alg».proof.Proof.Gen.Kernel.Launch
import proofs.«181173_j27504970564118_2_alg».proof.Proof.Gen.Kernel.Points
import proofs.«181173_j27504970564118_2_alg».proof.Proof.Gen.Kernel.Frame
import proofs.«181173_j27504970564118_2_alg».proof.Proof.Gen.KernelIdeal
import proofs.«181173_j27504970564118_2_alg».proof.Proof.Gen.KernelIdeal.Skeleton
import proofs.«181173_j27504970564118_2_alg».proof.Proof.Gen.KernelIdeal.Launch
import proofs.«181173_j27504970564118_2_alg».proof.Proof.Gen.KernelIdeal.Points
import proofs.«181173_j27504970564118_2_alg».proof.Proof.Gen.KernelIdeal.Frame
import proofs.«181173_j27504970564118_2_alg».proof.Proof.Gen.ReferenceIdeal
import proofs.«181173_j27504970564118_2_alg».proof.Proof.Gen.Pre_finite_inputs
import proofs.«181173_j27504970564118_2_alg».proof.Proof.Gen.KernelIdeal.Value
import proofs.«181173_j27504970564118_2_alg».proof.Proof.Gen.ReferenceIdeal.Run
import proofs.«181173_j27504970564118_2_alg».proof.Proof.Gen.ReferenceIdeal.Read
import proofs.«181173_j27504970564118_2_alg».proof.Proof.Blocks
import proofs.«181173_j27504970564118_2_alg».proof.Proof.RefCell
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result array is the layer's result of its argument arrays: entry `(s, n, q)` is node `n`'s
    update, plane `s`, column `q`. -/
theorem ref_result (m' : (ℓ : Loc Cert.ReferenceIdeal.nD Cert.ReferenceIdeal.τ Cert.ReferenceIdeal.sig) → Buf (Elt Ideal) ℓ)
    (c : Dev Cert.ReferenceIdeal.nD) :
    @Eq (Cert.ReferenceIdeal.S2x131072x128.Idx → EReal) (Cert.ReferenceIdeal.Value.res_main_v45 (F := Ideal) m' c)
      (TreeLstm.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) := by
  refine (Cert.ReferenceIdeal.Read.val_main_v45_eq (F := Ideal) m' c).trans ?_
  funext i
  obtain ⟨s, n, q, rfl⟩ : ∃ (s : Fin 2) (n : Fin 131072) (q : Fin 128), i = ix3 s n q := ⟨i 0, i 1, i 2, eq_ix3 i⟩
  exact Cert.ReferenceIdeal.RefValue.ref_apply _ _ _ _ _ _ _ _ _ s n q

/-- The printed kernel runs and leaves its arguments as they were: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a sequence of whole-array operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both programs end with the result array at the layer's result of
    those arguments. -/
theorem algebraic : Cert.algebraic_KernelIdeal_ReferenceIdeal := by
  intro m ρ m' ρ' _ hagree
  refine ⟨fun c => Cert.KernelIdeal.Hand.layer m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (ref_result m' c).trans ?_
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
